-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x40 : Shape := ⟨2, ![1, 40]⟩
abbrev S5000x128 : Shape := ⟨2, ![5000, 128]⟩
abbrev S5000x1 : Shape := ⟨2, ![5000, 1]⟩
abbrev S1700000x128 : Shape := ⟨2, ![1700000, 128]⟩
abbrev S100000x40 : Shape := ⟨2, ![100000, 40]⟩
abbrev S5000x40 : Shape := ⟨2, ![5000, 40]⟩
abbrev S1700000x40 : Shape := ⟨2, ![1700000, 40]⟩
abbrev S5000 : Shape := ⟨1, ![5000]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x40, .f32⟩
  | .hbm, ⟨30, _⟩ => ⟨S100000x128, .f32⟩
  | .hbm, ⟨31, _⟩ => ⟨S100000x128, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .bf16⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S100000x40, .f32⟩
  | .hbm, ⟨47, _⟩ => ⟨S100000x40, .bf16⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x40, .bf16⟩
  | .hbm, ⟨57, _⟩ => ⟨S1700000x40, .f32⟩
  | .hbm, ⟨58, _⟩ => ⟨S_, .f32⟩
  | .hbm, ⟨59, _⟩ => ⟨S100000x40, .f32⟩
  | .hbm, ⟨60, _⟩ => ⟨S1700000x1, .i32⟩
  | .hbm, ⟨61, _⟩ => ⟨S100000x40, .f32⟩
  | .hbm, ⟨62, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x1, .f32⟩
  | .local _ .vmem, ⟨18, _⟩ => ⟨S5000x1, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x40, .f32⟩
  | 115 => ⟨S1700000x1, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its result array named.

  Every weakly fair execution of the program from a memory with zero counters terminates without a fault; in the final
  state the result array holds what the last of the three row-blocked stages leaves in it — the fold of that stage's
  write-backs over the contents the stage found — and the six argument arrays are as they were at launch.
-/
import proofs.«140534_j83777632075847_2_alg».proof.Proof.Gen.KernelIdeal.Frame

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the contents the last stage's exit leaves there, the
    arguments unchanged. -/
theorem run_out : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Blocks

end
-- ==== Proof.Spec.lean ====
/-
  The three dense stages of a two-layer graph convolution, as whole-array functions over the extended reals.

  Every node row `p` carries a degree factor `d p` (one column, shape [100000, 1]).
  • `scaledProduct`: entry (p, q) of `(x · w)` scaled by the row's factor: `(∑ k, x p k * w k q) * d p`.
  • `scaledHidden`: from an aggregate `s`: the row is rescaled, shifted by the bias row `b` and clipped below at zero,
    multiplied into `w`, and the product is scaled by the row's factor again:
    `(∑ k, max (s p k * d p + b k) 0 * w k q) * d p`.
  • `logSoftmaxRows`: with `z p q = s p q * d p + b q`, `M p` the largest of `z p ·` (a fold of `max` from the value `lo`),
    entry (p, q) is `(z p q - M p) - log (∑ q', exp (z p q' - M p))`.
-/
import Idealize.ShloMosaic.PureOps.Ideal
import Idealize.ShloMosaic.Lib.ValueIdx

noncomputable section

namespace Cert.Gcn

open Idealize.ShloMosaic Idealize.ShloMosaic.ValueIdx

abbrev NodesFeat : Shape := ⟨2, ![100000, 128]⟩
abbrev NodesOut : Shape := ⟨2, ![100000, 40]⟩
abbrev NodesCol : Shape := ⟨2, ![100000, 1]⟩
abbrev W1Shape : Shape := ⟨2, ![128, 128]⟩
abbrev W2Shape : Shape := ⟨2, ![128, 40]⟩
abbrev B1Row : Shape := ⟨2, ![1, 128]⟩
abbrev B2Row : Shape := ⟨2, ![1, 40]⟩

/-- Row `p`, column `q` of `(x · w)`, scaled by the row's factor. -/
def scaledProductAt (x : NodesFeat.Idx → EReal) (w : W1Shape.Idx → EReal) (d : NodesCol.Idx → EReal)
    (p : Fin 100000) (q : Fin 128) : EReal :=
  (∑ k : Fin 128, x (ix2 p k) * w (ix2 k q)) * d (ix2 p (0 : Fin 1))

def scaledProduct (x : NodesFeat.Idx → EReal) (w : W1Shape.Idx → EReal) (d : NodesCol.Idx → EReal) : NodesFeat.Idx → EReal :=
  fun i => scaledProductAt x w d ⟨(i 0).val, idx2_lt0 i⟩ ⟨(i 1).val, idx2_lt1 i⟩

theorem scaledProduct_ix2 (x : NodesFeat.Idx → EReal) (w : W1Shape.Idx → EReal) (d : NodesCol.Idx → EReal)
    (p : Fin 100000) (q : Fin 128) : scaledProduct x w d (ix2 p q) = scaledProductAt x w d p q := rfl

/-- The hidden row rescaled, shifted, clipped at zero, multiplied into `w` and scaled again. -/
def scaledHiddenAt (s : NodesFeat.Idx → EReal) (d : NodesCol.Idx → EReal) (b : B1Row.Idx → EReal) (w : W2Shape.Idx → EReal)
    (p : Fin 100000) (q : Fin 40) : EReal :=
  (∑ k : Fin 128, max (s (ix2 p k) * d (ix2 p (0 : Fin 1)) + b (ix2 (0 : Fin 1) k)) 0 * w (ix2 k q)) * d (ix2 p (0 : Fin 1))

def scaledHidden (s : NodesFeat.Idx → EReal) (d : NodesCol.Idx → EReal) (b : B1Row.Idx → EReal) (w : W2Shape.Idx → EReal) :
    NodesOut.Idx → EReal :=
  fun i => scaledHiddenAt s d b w ⟨(i 0).val, idx2_lt0 i⟩ ⟨(i 1).val, idx2_lt1 i⟩

theorem scaledHidden_ix2 (s : NodesFeat.Idx → EReal) (d : NodesCol.Idx → EReal) (b : B1Row.Idx → EReal) (w : W2Shape.Idx → EReal)
    (p : Fin 100000) (q : Fin 40) : scaledHidden s d b w (ix2 p q) = scaledHiddenAt s d b w p q := rfl

/-- The logit of row `p`, class `q`: the aggregate rescaled and shifted by the bias. -/
def logitAt (s : NodesOut.Idx → EReal) (d : NodesCol.Idx → EReal) (b : B2Row.Idx → EReal) (p : Fin 100000) (q : Fin 40) : EReal :=
  s (ix2 p q) * d (ix2 p (0 : Fin 1)) + b (ix2 (0 : Fin 1) q)

/-- The largest logit of row `p`, as a fold of `max` from `lo` over the forty classes. -/
def rowMaxAt (lo : EReal) (s : NodesOut.Idx → EReal) (d : NodesCol.Idx → EReal) (b : B2Row.Idx → EReal) (p : Fin 100000) : EReal :=
  (Finset.univ : Finset (Fin 40)).fold max lo (fun q => logitAt s d b p q)

/-- The log-softmax of row `p` at class `q`, shifted by the row's largest logit. -/
def logSoftmaxAt (lo : EReal) (s : NodesOut.Idx → EReal) (d : NodesCol.Idx → EReal) (b : B2Row.Idx → EReal)
    (p : Fin 100000) (q : Fin 40) : EReal :=
  (logitAt s d b p q - rowMaxAt lo s d b p) -
    Ideal.log (∑ q' : Fin 40, Ideal.exp (logitAt s d b p q' - rowMaxAt lo s d b p))

def logSoftmaxRows (lo : EReal) (s : NodesOut.Idx → EReal) (d : NodesCol.Idx → EReal) (b : B2Row.Idx → EReal) : NodesOut.Idx → EReal :=
  fun i => logSoftmaxAt lo s d b ⟨(i 0).val, idx2_lt0 i⟩ ⟨(i 1).val, idx2_lt1 i⟩

theorem logSoftmaxRows_ix2 (lo : EReal) (s : NodesOut.Idx → EReal) (d : NodesCol.Idx → EReal) (b : B2Row.Idx → EReal)
    (p : Fin 100000) (q : Fin 40) : logSoftmaxRows lo s d b (ix2 p q) = logSoftmaxAt lo s d b p q := rfl

end Cert.Gcn

end
-- ==== Proof.Aggregate.lean ====
/-
  Gathering rows along an edge list and adding them into the rows the edges point to.

  `R` lists each edge's source row and `C` its destination row. A source row index is wrapped by the node count
  when it is negative (`wrappedColumn`) before the gather, which then clamps it into the array; a destination row index
  is used as it stands (`plainColumn`), and an edge whose destination is outside the array adds nothing.
  `aggregate128` / `aggregate40`: row `p` of the result is the sum of the rows `H (src e)` over the edges `e` with
  destination `p` (the narrowing to bf16 and back that surrounds the gather is the identity on extended reals).
-/
import proofs.«140534_j83777632075847_2_alg».proof.Proof.Gen.KernelIdeal
import Idealize.ShloMosaic.PureOps.Ideal

noncomputable section

namespace Cert.KernelIdeal.Blocks

open Cert.KernelIdeal Cert.KernelIdeal.Gen
open Idealize.ShloMosaic Idealize.ShloMosaic.TcCoe Idealize.SL.Sem

/-- An edge's source rows as a column of start indices: a negative entry is wrapped by the node count. -/
def wrappedColumn (R : IVec S1700000 32) : IVec S1700000x1 32 :=
  broadcastInDim S1700000x1 ![0] bcast_S1700000_S1700000x1_0
    (select (cmpi .slt R (broadcastInDim S1700000 ![] bcast_S_S1700000 (constantI S_ 32 0#32)))
      (addi R (broadcastInDim S1700000 ![] bcast_S_S1700000 (constantI S_ 32 100000#32))) R)

/-- An index vector as a column of scatter indices, entries as they stand. -/
def plainColumn (C : IVec S1700000 32) : IVec S1700000x1 32 :=
  broadcastInDim S1700000x1 ![0] bcast_S1700000_S1700000x1_0 C

/-- Rows of `H` gathered at the edges' source rows and added into the edges' destination rows (128 features). -/
def aggregate128 (H : FVec Ideal S100000x128 .f32) (R C : IVec S1700000 32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (plainColumn C)
    (extf .f32 (Host.gather gather_S100000x128_S1700000x1_S1700000x128_1_0_n_n_0_1_1128 (truncf .bf16 H bitsLt_bf16_f32)
      (wrappedColumn R)) bitsLt_bf16_f32)

/-- The same over 40 features. -/
def aggregate40 (H : FVec Ideal S100000x40 .f32) (R C : IVec S1700000 32) :
    FVec Ideal S100000x40 .f32 :=
  Host.scatterAdd scatter_S100000x40_S1700000x1_S1700000x40_1_0_0_1
    (broadcastInDim S100000x40 ![] bcast_S_S100000x40 (constant (F := Ideal) S_ .f32 0x00000000#32))
    (plainColumn C)
    (extf .f32 (Host.gather gather_S100000x40_S1700000x1_S1700000x40_1_0_n_n_0_1_140 (truncf .bf16 H bitsLt_bf16_f32)
      (wrappedColumn R)) bitsLt_bf16_f32)

end Cert.KernelIdeal.Blocks

end
-- ==== Proof.LibColumnBroadcast.lean ====
/-
  A column broadcast along the rows' second axis, read at an index: a general layout fact, independent of any program.
-/
import Idealize.ShloMosaic.Lib.Pipeline.Value
import Idealize.ShloMosaic.Lib.ValueIdx

namespace Idealize.ShloMosaic.ValueIdx

open Idealize.ShloMosaic

variable {α : Type}

/-- An `[a, 1]` array (one column) broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a, 1]` array (one column) to `[a, b]` along both axes reads, at `(p, c)`, the column's
    entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of a `[1, b]` array (one row) to `[a, b]` along both axes reads, at `(p, c)`, the row's entry
    of column `c`. -/
theorem broadcastInDim_1b_ab_apply {a b : ℕ} (v : (⟨2, ![1, b]⟩ : Shape).Idx → α)
    (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `broadcast_in_dim` of an `[a]` vector to `[a, 1]` (its entries down one column) reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A `broadcast_in_dim` of a `[b]` vector to `[1, b]` (its entries along one row) reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Idealize.ShloMosaic.ValueIdx
-- ==== Proof.Region0.lean ====
/-
  Region 0 of the kernel: every block of 5000 node rows is multiplied into the first weight matrix and each row is
  scaled by its degree factor. Read block by block and then over the whole array, the region's result is
  `Cert.Gcn.scaledProduct` of the three arrays it finds: entry (p, q) is `(∑ k, x p k * w k q) * d p`.
-/
import proofs.«140534_j83777632075847_2_alg».proof.Proof.Gen.KernelIdeal.Frame
import proofs.«140534_j83777632075847_2_alg».proof.Proof.Spec
import proofs.«140534_j83777632075847_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The product of a block of rows with the weight matrix, at an index -/

/-- The contraction's left index keeps the output row. -/
theorem rowsByW1_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The contraction's left index runs along the contracted position in the second axis. -/
theorem rowsByW1_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The contraction's right index runs along the contracted position in the first axis. -/
theorem rowsByW1_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The contraction's right index keeps the output column. -/
theorem rowsByW1_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weight matrix, accumulated from zero, is at (p, q) the sum over the 128 contracted
    positions of the row's entry times the matrix's. -/
theorem rowsByW1_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact rowsByW1_lhs_row _ _
    | ⟨1, _⟩ => exact (rowsByW1_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rowsByW1_rhs_row _ _).trans hk
    | ⟨1, _⟩ => exact rowsByW1_rhs_col _ _)
  rw [el, er]

/-! ## The body's payload at an index -/

/-- What the body stores, at row p and column q of the block: the row of `x0` times column q of the weight matrix,
    scaled by the row's factor. The bf16 narrowings and the same-shape cast are the identity on extended reals. -/
theorem scaledBlock_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine (mulf_apply _ _ (ix2 p q)).trans ?_
  refine congrArg₂ (· * ·) ?_ ?_
  · exact (rowsByW1_apply _ _ p q).trans (Finset.sum_congr rfl fun k _ => rfl)
  · refine (broadcastTo_a1_ab_apply _ broadcasts_S5000x1_S5000x128 p q).trans ?_
    exact congrFun (shapeCast_self x2 shapeCasts_S5000x1_S5000x1) (ix2 p (0 : Fin 1))

/-! ## The blocks as rows of the arrays the region finds -/

variable (V : (c : Dev nD) → (b : Ref sig .tc) → Buf (Elt Ideal) ((c : Thread nD τ).loc b))

theorem zeroOffsets : (![0, 0] : Fin 2 → Nat) = fun _ => 0 := funext fun a => by fin_cases a <;> rfl

/-- Point t reads and writes row block t of the three long arrays (rows 5000·t … 5000·t + 4999, all columns), and
    the whole weight matrix. Decided over the 20 points. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the feature array. -/
theorem featBlock0_apply (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_arg0 : S100000x128.Idx → EReal) k := by
  obtain ⟨e0, e1, -⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight block at every point is the whole weight matrix. -/
theorem weightBlock0_apply (c : Dev nD) (t : Fin cfg0.N) (x : S128x128.Idx) :
    (iblk0 V c 1 t : Vec Ideal S128x128 .f32) x = (V c main_arg2 : S128x128.Idx → EReal) x := by
  obtain ⟨-, -, e0, e1, -⟩ := blockIndex0 t
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The factor block at point t is rows 5000·t … of the degree column. -/
theorem factorBlock0_apply (c : Dev nD) (t : Fin cfg0.N) (x : S5000x1.Idx) (k : S100000x1.Idx)
    (hk0 : (k 0).val = t.val * 5000 + (x 0).val) (hk1 : (k 1).val = (x 1).val) :
    (iblk0 V c 2 t : Vec Ideal S5000x1 .f32) x = (V c main_v15 : S100000x1.Idx → EReal) k := by
  obtain ⟨-, -, -, -, e0, e1, -⟩ := blockIndex0 t
  unfold iblk0
  rw [View.read_apply]
  show V c main_v15 _ = V c main_v15 _
  congr 1
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-! ## What a point writes back is its block of the whole-array function -/

/-- The payload at (p, q), from blocks that are rows r … of the arrays, is the whole-array function at (r, q). -/
theorem scaledBlock_entry (x0 : Vec Ideal S5000x128 .f32) (x1 : Vec Ideal S128x128 .f32) (x2 : Vec Ideal S5000x1 .f32)
    (A0 : S100000x128.Idx → EReal) (A1 : S128x128.Idx → EReal) (A2 : S100000x1.Idx → EReal)
    (p : Fin 5000) (q : Fin 128) (r : Fin 100000)
    (h0 : ∀ k : Fin 128, x0 (ix2 p k) = A0 (ix2 r k))
    (h1 : ∀ k : Fin 128, x1 (ix2 k q) = A1 (ix2 k q))
    (h2 : x2 (ix2 p (0 : Fin 1)) = A2 (ix2 r (0 : Fin 1))) :
    k0_pay1 x0 x1 x2 (ix2 p q) = Cert.Gcn.scaledProduct A0 A1 A2 (ix2 r q) := by
  refine (scaledBlock_apply x0 x1 x2 p q).trans ?_
  rw [Cert.Gcn.scaledProduct_ix2]
  unfold Cert.Gcn.scaledProductAt
  rw [h2]
  exact congrArg (· * A2 (ix2 r (0 : Fin 1))) (Finset.sum_congr rfl fun k _ => by rw [h0 k, h1 k])

/-- WHAT POINT t WRITES BACK is block t of the scaled product of the arrays the region finds. -/
theorem flushed0_eq (c : Dev nD) (t : Fin cfg0.N) :
    (dat0 (F := Ideal) V c).flushed 3 t = ((cfg0.win 3).blk t).view.read (Elt Ideal)
      (Cert.Gcn.scaledProduct (V c main_arg0 : S100000x128.Idx → EReal) (V c main_arg2 : S128x128.Idx → EReal) (V c main_v15 : S100000x1.Idx → EReal)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets, View.ld_unit_zero (S := S5000x1) zeroOffsets]
  obtain ⟨-, -, -, -, -, -, e30, e31⟩ := blockIndex0 t
  have ht : t.val < 20 := Nat.lt_of_lt_of_eq t.isLt N_0
  funext j
  have hj0 : (j 0).val < 5000 := (j 0).isLt
  have hj1 : (j 1).val < 128 := (j 1).isLt
  have hx : (cfg0.win 3).xinj (grid0.coords t) j = (ix2 (⟨(j 0).val, hj0⟩ : Fin 5000) (⟨(j 1).val, hj1⟩ : Fin 128) : S5000x128.Idx) :=
    funext fun a => by match a with | ⟨0, _⟩ => rfl | ⟨1, _⟩ => rfl
  have hemb : ((cfg0.win 3).blk t).view.emb j = (ix2 (⟨t.val * 5000 + (j 0).val, by omega⟩ : Fin 100000) (⟨(j 1).val, hj1⟩ : Fin 128) : S100000x128.Idx) :=
    funext fun a => Fin.ext (by
      match a with
      | ⟨0, _⟩ => show win0_3.index t (0 : Fin 2) * 5000 + 1 * (j 0).val = t.val * 5000 + (j 0).val; rw [e30]; omega
      | ⟨1, _⟩ => show win0_3.index t (1 : Fin 2) * 128 + 1 * (j 1).val = (j 1).val; rw [e31]; omega)
  show k0_pay1 (iblk0 V c 0 t) (iblk0 V c 1 t) (iblk0 V c 2 t) ((cfg0.win 3).xinj (grid0.coords t) j)
    = Cert.Gcn.scaledProduct (V c main_arg0 : S100000x128.Idx → EReal) (V c main_arg2 : S128x128.Idx → EReal) (V c main_v15 : S100000x1.Idx → EReal) (((cfg0.win 3).blk t).view.emb j)
  rw [hx, hemb]
  refine scaledBlock_entry _ _ _ _ _ _ _ _ _ (fun k => ?_) (fun k => ?_) ?_
  · exact featBlock0_apply V c t _ _ rfl rfl
  · exact weightBlock0_apply V c t _
  · exact factorBlock0_apply V c t _ _ rfl rfl

/-! ## The twenty blocks cover the array -/

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row r lies in the block of point r / 5000. -/
theorem covered0 (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, -, -, e30, e31⟩ := blockIndex0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 128 ≤ (i 1).val ∧ (i 1).val < win0_3.index t (1 : Fin 2) * 128 + 128; rw [e31]; omega

/-! ## The region's result array -/

/-- THE RESULT ARRAY after region 0 is the scaled product of the feature array, the first weight matrix and the
    degree column, as the region finds them. -/
theorem final0 (c : Dev nD) : (dat0 (F := Ideal) V c).arrAt 3 cfg0.N
    = Cert.Gcn.scaledProduct (V c main_arg0 : S100000x128.Idx → EReal) (V c main_arg2 : S128x128.Idx → EReal) (V c main_v15 : S100000x1.Idx → EReal) :=
  (dat0 (F := Ideal) V c).arrAt_eq_of_cover 3
    (Cert.Gcn.scaledProduct (V c main_arg0 : S100000x128.Idx → EReal) (V c main_arg2 : S128x128.Idx → EReal) (V c main_v15 : S100000x1.Idx → EReal))
    (fun t _ => flushed0_eq V c t) covered0

end Cert.KernelIdeal.Blocks

end
-- ==== Proof.Region1.lean ====
/-
  Region 1 of the kernel: every block of 5000 aggregated rows is rescaled by its degree factor, shifted by the bias
  row, clipped below at zero, multiplied into the second weight matrix, and scaled by the factor again. Read block by
  block and then over the whole array, the region's result is `Cert.Gcn.scaledHidden` of the four arrays it finds:
  entry (p, q) is `(∑ k, max (s p k * d p + b k) 0 * w k q) * d p`.
-/
import proofs.«140534_j83777632075847_2_alg».proof.Proof.Gen.KernelIdeal.Frame
import proofs.«140534_j83777632075847_2_alg».proof.Proof.Spec
import proofs.«140534_j83777632075847_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The product of a block of rows with the second weight matrix, at an index -/

/-- The contraction's left index keeps the output row. -/
theorem rowsByW2_lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- The contraction's left index runs along the contracted position in the second axis. -/
theorem rowsByW2_lhs_col (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- The contraction's right index runs along the contracted position in the first axis. -/
theorem rowsByW2_rhs_row (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- The contraction's right index keeps the output column. -/
theorem rowsByW2_rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A block of rows times the second weight matrix, accumulated from zero, is at (p, q) the sum over the 128 contracted
    positions of the row's entry times the matrix's. -/
theorem rowsByW2_apply (a : FVec Ideal S5000x128 .bf16) (b : FVec Ideal S128x40 .bf16) (p : Fin 5000) (q : Fin 40) :
    matmul dot_S5000x128_S128x40_S5000x40_1_0_0_1_n_n none a b (constant (F := Ideal) S5000x40 .f32 0x00000000#32) (ix2 p q)
      = ∑ k : Fin 128, a (ix2 p k) * b (ix2 k q) := by
  refine (Ideal.matmul_constant_zero_apply dot_S5000x128_S128x40_S5000x40_1_0_0_1_n_n none a b (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun ax => Fin.ext (by
    match ax with
    | ⟨0, _⟩ => exact rowsByW2_lhs_row _ _
    | ⟨1, _⟩ => exact (rowsByW2_lhs_col _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun ax => Fin.ext (by
    match ax with
    | ⟨0, _⟩ => exact (rowsByW2_rhs_row _ _).trans hk
    | ⟨1, _⟩ => exact rowsByW2_rhs_col _ _)
  rw [el, er]

/-! ## The body's payload at an index -/

/-- The left operand of the product at (p, k): the aggregate rescaled by the row's factor, shifted by the bias entry
    of column k and clipped below at zero. The column and the row are spread along the other axis; the same-shape
    casts are the identity; the splat of the zero word is 0. -/
theorem clippedRow_apply (x0 : Vec Ideal S5000x128 .f32) (x1 : Vec Ideal S5000x1 .f32) (x2 : Vec Ideal S1x128 .f32)
    (p : Fin 5000) (k : Fin 128) :
    (maximumf (addf (mulf (shapeCast S5000x128 x0 shapeCasts_S5000x128_S5000x128)
          (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
      (broadcast S5000x128 (Scalar.ofBits (F := Ideal) .f32 0x00000000#32)) : FVec Ideal S5000x128 .f32) (ix2 p k)
      = max (x0 (ix2 p k) * x1 (ix2 p (0 : Fin 1)) + x2 (ix2 (0 : Fin 1) k)) 0 := by
  rw [shapeCast_self x0, shapeCast_self x1, shapeCast_self x2]
  refine (maximumf_apply _ _ (ix2 p k)).trans ?_
  refine congrArg₂ max ?_ Ideal.ofBits_zero_f32
  refine (addf_apply _ _ (ix2 p k)).trans ?_
  refine congrArg₂ (· + ·) ?_ (broadcastTo_1b_ab_apply x2 broadcasts_S1x128_S5000x128 p k)
  refine (mulf_apply _ _ (ix2 p k)).trans ?_
  exact congrArg (x0 (ix2 p k) * ·) (broadcastTo_a1_ab_apply x1 broadcasts_S5000x1_S5000x128 p k)

/-- What the body stores, at row p and column q of the block. The bf16 narrowings are the identity on extended reals. -/
theorem hiddenBlock_apply (x0 : Vec Ideal S5000x128 .f32) (x1 : Vec Ideal S5000x1 .f32) (x2 : Vec Ideal S1x128 .f32)
    (x3 : Vec Ideal S128x40 .f32) (x4 : Vec Ideal S5000x1 .f32) (p : Fin 5000) (q : Fin 40) :
    k1_pay1 x0 x1 x2 x3 x4 (ix2 p q)
      = (∑ k : Fin 128, max (x0 (ix2 p k) * x1 (ix2 p (0 : Fin 1)) + x2 (ix2 (0 : Fin 1) k)) 0 * x3 (ix2 k q)) * x4 (ix2 p (0 : Fin 1)) := by
  unfold k1_pay1
  refine (mulf_apply _ _ (ix2 p q)).trans ?_
  refine congrArg₂ (· * ·) ?_ ?_
  · refine (rowsByW2_apply _ _ p q).trans (Finset.sum_congr rfl fun k _ => ?_)
    exact congrArg (· * x3 (ix2 k q)) (clippedRow_apply x0 x1 x2 p k)
  · refine (broadcastTo_a1_ab_apply _ broadcasts_S5000x1_S5000x40 p q).trans ?_
    exact congrFun (shapeCast_self x4 shapeCasts_S5000x1_S5000x1) (ix2 p (0 : Fin 1))

/-! ## The blocks as rows of the arrays the region finds -/

variable (V : (c : Dev nD) → (b : Ref sig .tc) → Buf (Elt Ideal) ((c : Thread nD τ).loc b))

theorem zeroOffsets1 : (![0, 0] : Fin 2 → Nat) = fun _ => 0 := funext fun a => by fin_cases a <;> rfl

/-- Point t reads and writes row block t of the three long arrays (rows 5000·t … 5000·t + 4999, all columns), and
    the whole bias row and weight matrix. Decided over the 20 points. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate block at point t is rows 5000·t … of the aggregate array. -/
theorem aggBlock1_apply (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v30 : S100000x128.Idx → EReal) k := by
  obtain ⟨e0, e1, -⟩ := blockIndex1 t
  unfold iblk1
  rw [View.read_apply]
  show V c main_v30 _ = V c main_v30 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The factor block at point t is rows 5000·t … of the degree column. -/
theorem factorBlock1_apply (c : Dev nD) (t : Fin cfg1.N) (x : S5000x1.Idx) (k : S100000x1.Idx)
    (hk0 : (k 0).val = t.val * 5000 + (x 0).val) (hk1 : (k 1).val = (x 1).val) :
    (iblk1 V c 1 t : Vec Ideal S5000x1 .f32) x = (V c main_v15 : S100000x1.Idx → EReal) k := by
  obtain ⟨-, -, e0, e1, -⟩ := blockIndex1 t
  unfold iblk1
  rw [View.read_apply]
  show V c main_v15 _ = V c main_v15 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The bias block at every point is the whole bias row. -/
theorem biasBlock1_apply (c : Dev nD) (t : Fin cfg1.N) (x : S1x128.Idx) :
    (iblk1 V c 2 t : Vec Ideal S1x128 .f32) x = (V c main_v16 : S1x128.Idx → EReal) x := by
  obtain ⟨-, -, -, -, e0, e1, -⟩ := blockIndex1 t
  unfold iblk1
  rw [View.read_apply]
  show V c main_v16 _ = V c main_v16 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The weight block at every point is the whole second weight matrix. -/
theorem weightBlock1_apply (c : Dev nD) (t : Fin cfg1.N) (x : S128x40.Idx) :
    (iblk1 V c 3 t : Vec Ideal S128x40 .f32) x = (V c main_arg4 : S128x40.Idx → EReal) x := by
  obtain ⟨-, -, -, -, -, -, e0, e1, -⟩ := blockIndex1 t
  unfold iblk1
  rw [View.read_apply]
  show V c main_arg4 _ = V c main_arg4 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 40 + 1 * (x 1).val = (x 1).val; rw [e1]; omega

/-! ## What a point writes back is its block of the whole-array function -/

/-- The payload at (p, q), from blocks that are rows r … of the long arrays, is the whole-array function at (r, q). -/
theorem hiddenBlock_entry (x0 : Vec Ideal S5000x128 .f32) (x1 : Vec Ideal S5000x1 .f32) (x2 : Vec Ideal S1x128 .f32)
    (x3 : Vec Ideal S128x40 .f32)
    (A0 : S100000x128.Idx → EReal) (A1 : S100000x1.Idx → EReal) (A2 : S1x128.Idx → EReal) (A3 : S128x40.Idx → EReal)
    (p : Fin 5000) (q : Fin 40) (r : Fin 100000)
    (h0 : ∀ k : Fin 128, x0 (ix2 p k) = A0 (ix2 r k))
    (h1 : x1 (ix2 p (0 : Fin 1)) = A1 (ix2 r (0 : Fin 1)))
    (h2 : ∀ k : Fin 128, x2 (ix2 (0 : Fin 1) k) = A2 (ix2 (0 : Fin 1) k))
    (h3 : ∀ k : Fin 128, x3 (ix2 k q) = A3 (ix2 k q)) :
    k1_pay1 x0 x1 x2 x3 x1 (ix2 p q) = Cert.Gcn.scaledHidden A0 A1 A2 A3 (ix2 r q) := by
  refine (hiddenBlock_apply x0 x1 x2 x3 x1 p q).trans ?_
  rw [Cert.Gcn.scaledHidden_ix2]
  unfold Cert.Gcn.scaledHiddenAt
  rw [h1]
  exact congrArg (· * A1 (ix2 r (0 : Fin 1))) (Finset.sum_congr rfl fun k _ => by rw [h0 k, h2 k, h3 k])

/-- WHAT POINT t WRITES BACK is block t of the scaled hidden layer of the arrays the region finds. -/
theorem flushed1_eq (c : Dev nD) (t : Fin cfg1.N) :
    (dat1 (F := Ideal) V c).flushed 4 t = ((cfg1.win 4).blk t).view.read (Elt Ideal)
      (Cert.Gcn.scaledHidden (V c main_v30 : S100000x128.Idx → EReal) (V c main_v15 : S100000x1.Idx → EReal) (V c main_v16 : S1x128.Idx → EReal) (V c main_arg4 : S128x40.Idx → EReal)) := by
  show (cfg1.win 4).cut (grid1.coords t) ((dat1 V c).after 4 t) = _
  rw [after1_4]
  unfold out1_4
  rw [View.canon_unit_zero zeroOffsets1]
  simp only [View.ld_unit_zero (S := S5000x128) zeroOffsets1, View.ld_unit_zero (S := S5000x1) zeroOffsets1, View.ld_unit_zero (S := S1x128) zeroOffsets1, View.ld_unit_zero (S := S128x40) zeroOffsets1]
  obtain ⟨-, -, -, -, -, -, -, -, e40, e41⟩ := blockIndex1 t
  have ht : t.val < 20 := Nat.lt_of_lt_of_eq t.isLt N_1
  funext j
  have hj0 : (j 0).val < 5000 := (j 0).isLt
  have hj1 : (j 1).val < 40 := (j 1).isLt
  have hx : (cfg1.win 4).xinj (grid1.coords t) j = (ix2 (⟨(j 0).val, hj0⟩ : Fin 5000) (⟨(j 1).val, hj1⟩ : Fin 40) : S5000x40.Idx) :=
    funext fun a => by match a with | ⟨0, _⟩ => rfl | ⟨1, _⟩ => rfl
  have hemb : ((cfg1.win 4).blk t).view.emb j = (ix2 (⟨t.val * 5000 + (j 0).val, by omega⟩ : Fin 100000) (⟨(j 1).val, hj1⟩ : Fin 40) : S100000x40.Idx) :=
    funext fun a => Fin.ext (by
      match a with
      | ⟨0, _⟩ => show win1_4.index t (0 : Fin 2) * 5000 + 1 * (j 0).val = t.val * 5000 + (j 0).val; rw [e40]; omega
      | ⟨1, _⟩ => show win1_4.index t (1 : Fin 2) * 40 + 1 * (j 1).val = (j 1).val; rw [e41]; omega)
  show k1_pay1 (iblk1 V c 0 t) (iblk1 V c 1 t) (iblk1 V c 2 t) (iblk1 V c 3 t) (iblk1 V c 1 t) ((cfg1.win 4).xinj (grid1.coords t) j)
    = Cert.Gcn.scaledHidden (V c main_v30 : S100000x128.Idx → EReal) (V c main_v15 : S100000x1.Idx → EReal) (V c main_v16 : S1x128.Idx → EReal) (V c main_arg4 : S128x40.Idx → EReal) (((cfg1.win 4).blk t).view.emb j)
  rw [hx, hemb]
  refine hiddenBlock_entry _ _ _ _ _ _ _ _ _ _ _ (fun k => ?_) ?_ (fun k => ?_) (fun k => ?_)
  · exact aggBlock1_apply V c t _ _ rfl rfl
  · exact factorBlock1_apply V c t _ _ rfl rfl
  · exact biasBlock1_apply V c t _
  · exact weightBlock1_apply V c t _

/-! ## The twenty blocks cover the array -/

/-- An index of the result array is in point t's block iff each coordinate is in the block's range on its axis. -/
theorem mem_blk1 (t : Fin cfg1.N) (i : S100000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v31).slice (win1_4.rect t)).set ↔ _
  rw [View.set_slice_whole, Rect.mem_set_unit]
  exact Iff.rfl

/-- Row r lies in the block of point r / 5000. -/
theorem covered1 (i : S100000x40.Idx) : ∃ t : Fin cfg1.N, (cfg1.win 4).flush t = true ∧ i ∈ ((cfg1.win 4).blk t).view.set := by
  have hi0 : (i 0).val < 100000 := idx2_lt0 i
  have hi1 : (i 1).val < 40 := idx2_lt1 i
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨-, -, -, -, -, -, -, -, e40, e41⟩ := blockIndex1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e40, ht]; omega
  | ⟨1, _⟩ => show win1_4.index t (1 : Fin 2) * 40 ≤ (i 1).val ∧ (i 1).val < win1_4.index t (1 : Fin 2) * 40 + 40; rw [e41]; omega

/-! ## The region's result array -/

/-- THE RESULT ARRAY after region 1 is the scaled hidden layer of the aggregate, the degree column, the bias row and
    the second weight matrix, as the region finds them. -/
theorem final1 (c : Dev nD) : (dat1 (F := Ideal) V c).arrAt 4 cfg1.N
    = Cert.Gcn.scaledHidden (V c main_v30 : S100000x128.Idx → EReal) (V c main_v15 : S100000x1.Idx → EReal) (V c main_v16 : S1x128.Idx → EReal) (V c main_arg4 : S128x40.Idx → EReal) :=
  (dat1 (F := Ideal) V c).arrAt_eq_of_cover 4
    (Cert.Gcn.scaledHidden (V c main_v30 : S100000x128.Idx → EReal) (V c main_v15 : S100000x1.Idx → EReal) (V c main_v16 : S1x128.Idx → EReal) (V c main_arg4 : S128x40.Idx → EReal))
    (fun t _ => flushed1_eq V c t) covered1

end Cert.KernelIdeal.Blocks

end
-- ==== Proof.Region2.lean ====
/-
  Region 2 of the kernel: every block of 5000 aggregated rows is rescaled by its degree factor and shifted by the bias
  row to give the logits; each row's largest logit is subtracted, and then the logarithm of the row's sum of
  exponentials. Read block by block and then over the whole array, the region's result is
  `Cert.Gcn.logSoftmaxRows` of the three arrays it finds, the row maximum being a fold of `max` from the value of the
  word the reduction starts at.
-/
import proofs.«140534_j83777632075847_2_alg».proof.Proof.Gen.KernelIdeal.Frame
import proofs.«140534_j83777632075847_2_alg».proof.Proof.Spec
import proofs.«140534_j83777632075847_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The logits of a block -/

/-- The logits of a block: the aggregate times the row's factor, plus the bias of the column. -/
def logitsBlock (x0 : Vec Ideal S5000x40 .f32) (x1 : Vec Ideal S5000x1 .f32) (x2 : Vec Ideal S1x40 .f32) : FVec Ideal S5000x40 .f32 :=
  addf (mulf (shapeCast S5000x40 x0 shapeCasts_S5000x40_S5000x40)
      (broadcastTo S5000x40 (shapeCast S5000x1 x1 shapeCasts_S5000x1_S5000x1) broadcasts_S5000x1_S5000x40))
    (broadcastTo S5000x40 (shapeCast S1x40 x2 shapeCasts_S1x40_S1x40) broadcasts_S1x40_S5000x40)

/-- The logit of row p, class q of a block. -/
def blockLogit (x0 : Vec Ideal S5000x40 .f32) (x1 : Vec Ideal S5000x1 .f32) (x2 : Vec Ideal S1x40 .f32) (p : Fin 5000) (q : Fin 40) : EReal :=
  x0 (ix2 p q) * x1 (ix2 p (0 : Fin 1)) + x2 (ix2 (0 : Fin 1) q)

/-- The largest logit of row p of a block, as a fold of `max` over the forty classes. -/
def blockRowMax (x0 : Vec Ideal S5000x40 .f32) (x1 : Vec Ideal S5000x1 .f32) (x2 : Vec Ideal S1x40 .f32) (p : Fin 5000) : EReal :=
  (Finset.univ : Finset (Fin 40)).fold max (Ideal.ofBits .f32 0xFF800000#32) (fun q => blockLogit x0 x1 x2 p q)

/-- The column and the row are spread along the other axis; the same-shape casts are the identity. -/
theorem logits_apply (x0 : Vec Ideal S5000x40 .f32) (x1 : Vec Ideal S5000x1 .f32) (x2 : Vec Ideal S1x40 .f32) (p : Fin 5000) (q : Fin 40) :
    logitsBlock x0 x1 x2 (ix2 p q) = blockLogit x0 x1 x2 p q := by
  unfold logitsBlock blockLogit
  rw [shapeCast_self x0, shapeCast_self x1, shapeCast_self x2]
  refine (addf_apply _ _ (ix2 p q)).trans ?_
  refine congrArg₂ (· + ·) ?_ (broadcastTo_1b_ab_apply x2 broadcasts_S1x40_S5000x40 p q)
  refine (mulf_apply _ _ (ix2 p q)).trans ?_
  exact congrArg (x0 (ix2 p q) * ·) (broadcastTo_a1_ab_apply x1 broadcasts_S5000x1_S5000x40 p q)

/-! ## The lane reductions and the cast to a column, at an index -/

/-- A vector of length a cast to one column reads, at (i, u), its entry i. -/
theorem castToColumn_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane maximum of row p: the fold of `max` over the forty classes from the value of the starting word. -/
theorem laneMax_apply (src : FVec Ideal S5000x40 .f32) (hφ : FKind.Formats .f32)
    (hacc : (0xFF800000#32 : BitVec 32) = FKind.maximumf.neutral .f32 hφ) (p : Fin 5000) :
    multiReduction .maximumf [1] S5000 src 0xFF800000#32 reduces_S5000x40_S5000 hφ hacc (ix1 p)
      = (Finset.univ : Finset (Fin 40)).fold max (Ideal.ofBits .f32 0xFF800000#32) (fun q => src (ix2 p q)) := by
  refine (Ideal.multiReduction_maximumf_single src 0xFF800000#32 reduces_S5000x40_S5000 hφ hacc (ix1 p)).trans ?_
  show (Finset.univ : Finset (Fin 40)).fold max (Ideal.ofBits .f32 0xFF800000#32) (src ∘ reduces_S5000x40_S5000.lift (ix1 p)) = _
  refine congrArg ((Finset.univ : Finset (Fin 40)).fold max (Ideal.ofBits .f32 0xFF800000#32)) (funext fun q => ?_)
  exact congrArg src (funext fun a => Fin.ext (by match a with | ⟨0, _⟩ => rfl | ⟨1, _⟩ => rfl))

/-- The lane sum of row p: the sum over the forty classes. -/
theorem laneSum_apply (src : FVec Ideal S5000x40 .f32) (hφ : FKind.Formats .f32)
    (hacc : (0x00000000#32 : BitVec 32) = FKind.add.neutral .f32 hφ) (p : Fin 5000) :
    multiReduction .add [1] S5000 src 0x00000000#32 reduces_S5000x40_S5000 hφ hacc (ix1 p) = ∑ q : Fin 40, src (ix2 p q) := by
  refine (Ideal.multiReduction_add_single src 0x00000000#32 reduces_S5000x40_S5000 hφ hacc (ix1 p)).trans ?_
  show ∑ q : Fin 40, src (reduces_S5000x40_S5000.lift (ix1 p) q) = _
  refine Finset.sum_congr rfl fun q _ => ?_
  exact congrArg src (funext fun a => Fin.ext (by match a with | ⟨0, _⟩ => rfl | ⟨1, _⟩ => rfl))

/-- A block minus its rows' lane maxima, spread back along the classes. -/
theorem shifted_apply (z : FVec Ideal S5000x40 .f32) (hφ : FKind.Formats .f32)
    (hacc : (0xFF800000#32 : BitVec 32) = FKind.maximumf.neutral .f32 hφ) (p : Fin 5000) (q : Fin 40) :
    (subf z (broadcastTo S5000x40 (shapeCast S5000x1 (multiReduction .maximumf [1] S5000 z 0xFF800000#32 reduces_S5000x40_S5000 hφ hacc)
        shapeCasts_S5000_S5000x1) broadcasts_S5000x1_S5000x40) : FVec Ideal S5000x40 .f32) (ix2 p q)
      = z (ix2 p q) - (Finset.univ : Finset (Fin 40)).fold max (Ideal.ofBits .f32 0xFF800000#32) (fun q' => z (ix2 p q')) := by
  refine (subf_apply _ _ (ix2 p q)).trans ?_
  refine congrArg (z (ix2 p q) - ·) ?_
  refine (broadcastTo_a1_ab_apply _ broadcasts_S5000x1_S5000x40 p q).trans ?_
  refine (castToColumn_apply _ shapeCasts_S5000_S5000x1 p (0 : Fin 1)).trans ?_
  exact laneMax_apply z hφ hacc p

/-- A block minus the logarithm of its rows' sums of exponentials, spread back along the classes. -/
theorem minusLogSumExp_apply (w : FVec Ideal S5000x40 .f32) (hφ : FKind.Formats .f32)
    (hacc : (0x00000000#32 : BitVec 32) = FKind.add.neutral .f32 hφ) (p : Fin 5000) (q : Fin 40) :
    (subf w (broadcastTo S5000x40 (Idealize.ShloMosaic.log (shapeCast S5000x1
        (multiReduction .add [1] S5000 (Idealize.ShloMosaic.exp w) 0x00000000#32 reduces_S5000x40_S5000 hφ hacc)
        shapeCasts_S5000_S5000x1)) broadcasts_S5000x1_S5000x40) : FVec Ideal S5000x40 .f32) (ix2 p q)
      = w (ix2 p q) - Ideal.log (∑ q' : Fin 40, Ideal.exp (w (ix2 p q'))) := by
  refine (subf_apply _ _ (ix2 p q)).trans ?_
  refine congrArg (w (ix2 p q) - ·) ?_
  refine (broadcastTo_a1_ab_apply _ broadcasts_S5000x1_S5000x40 p q).trans ?_
  refine congrArg Ideal.log ?_
  refine (castToColumn_apply _ shapeCasts_S5000_S5000x1 p (0 : Fin 1)).trans ?_
  exact (laneSum_apply (Idealize.ShloMosaic.exp w) hφ hacc p).trans (Finset.sum_congr rfl fun q' _ => rfl)

/-! ## The body's payload at an index -/

/-- What the body stores, at row p and class q of the block: the logit less the row's largest, less the logarithm of
    the row's sum of exponentials of the logits less the row's largest. -/
theorem logSoftmaxBlock_apply (x0 : Vec Ideal S5000x40 .f32) (x1 : Vec Ideal S5000x1 .f32) (x2 : Vec Ideal S1x40 .f32)
    (p : Fin 5000) (q : Fin 40) :
    k2_pay1 x0 x1 x2 (ix2 p q)
      = (blockLogit x0 x1 x2 p q - blockRowMax x0 x1 x2 p)
        - Ideal.log (∑ q' : Fin 40, Ideal.exp (blockLogit x0 x1 x2 p q' - blockRowMax x0 x1 x2 p)) := by
  have hshift : ∀ (hφ : FKind.Formats .f32) (hacc : (0xFF800000#32 : BitVec 32) = FKind.maximumf.neutral .f32 hφ) (q' : Fin 40),
      (subf (logitsBlock x0 x1 x2) (broadcastTo S5000x40 (shapeCast S5000x1
          (multiReduction .maximumf [1] S5000 (logitsBlock x0 x1 x2) 0xFF800000#32 reduces_S5000x40_S5000 hφ hacc)
          shapeCasts_S5000_S5000x1) broadcasts_S5000x1_S5000x40) : FVec Ideal S5000x40 .f32) (ix2 p q')
        = blockLogit x0 x1 x2 p q' - blockRowMax x0 x1 x2 p := fun hφ hacc q' => by
    refine (shifted_apply (logitsBlock x0 x1 x2) hφ hacc p q').trans ?_
    unfold blockRowMax
    simp only [logits_apply]
  unfold k2_pay1
  refine (minusLogSumExp_apply _ _ _ p q).trans ?_
  refine congrArg₂ (fun a b => a - Ideal.log b) (hshift _ _ q) (Finset.sum_congr rfl fun q' _ => congrArg Ideal.exp (hshift _ _ q'))

/-! ## The blocks as rows of the arrays the region finds -/

variable (V : (c : Dev nD) → (b : Ref sig .tc) → Buf (Elt Ideal) ((c : Thread nD τ).loc b))

theorem zeroOffsets2 : (![0, 0] : Fin 2 → Nat) = fun _ => 0 := funext fun a => by fin_cases a <;> rfl

/-- Point t reads and writes row block t of the three long arrays (rows 5000·t … 5000·t + 4999, all columns), and
    the whole bias row. Decided over the 20 points. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate block at point t is rows 5000·t … of the aggregate array. -/
theorem aggBlock2_apply (c : Dev nD) (t : Fin cfg2.N) (x : S5000x40.Idx) (k : S100000x40.Idx)
    (hk0 : (k 0).val = t.val * 5000 + (x 0).val) (hk1 : (k 1).val = (x 1).val) :
    (iblk2 V c 0 t : Vec Ideal S5000x40 .f32) x = (V c main_v43 : S100000x40.Idx → EReal) k := by
  obtain ⟨e0, e1, -⟩ := blockIndex2 t
  unfold iblk2
  rw [View.read_apply]
  show V c main_v43 _ = V c main_v43 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 40 + 1 * (x 1).val = (k 1).val; rw [e1, hk1]; omega

/-- The factor block at point t is rows 5000·t … of the degree column. -/
theorem factorBlock2_apply (c : Dev nD) (t : Fin cfg2.N) (x : S5000x1.Idx) (k : S100000x1.Idx)
    (hk0 : (k 0).val = t.val * 5000 + (x 0).val) (hk1 : (k 1).val = (x 1).val) :
    (iblk2 V c 1 t : Vec Ideal S5000x1 .f32) x = (V c main_v15 : S100000x1.Idx → EReal) k := by
  obtain ⟨-, -, e0, e1, -⟩ := blockIndex2 t
  unfold iblk2
  rw [View.read_apply]
  show V c main_v15 _ = V c main_v15 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 1 + 1 * (x 1).val = (k 1).val; rw [e1, hk1]; omega

/-- The bias block at every point is the whole bias row. -/
theorem biasBlock2_apply (c : Dev nD) (t : Fin cfg2.N) (x : S1x40.Idx) :
    (iblk2 V c 2 t : Vec Ideal S1x40 .f32) x = (V c main_v17 : S1x40.Idx → EReal) x := by
  obtain ⟨-, -, -, -, e0, e1, -⟩ := blockIndex2 t
  unfold iblk2
  rw [View.read_apply]
  show V c main_v17 _ = V c main_v17 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 40 + 1 * (x 1).val = (x 1).val; rw [e1]; omega

/-! ## What a point writes back is its block of the whole-array function -/

/-- The payload at (p, q), from blocks that are rows r … of the long arrays, is the whole-array function at (r, q). -/
theorem logSoftmaxBlock_entry (x0 : Vec Ideal S5000x40 .f32) (x1 : Vec Ideal S5000x1 .f32) (x2 : Vec Ideal S1x40 .f32)
    (A0 : S100000x40.Idx → EReal) (A1 : S100000x1.Idx → EReal) (A2 : S1x40.Idx → EReal)
    (p : Fin 5000) (q : Fin 40) (r : Fin 100000)
    (h0 : ∀ k : Fin 40, x0 (ix2 p k) = A0 (ix2 r k))
    (h1 : x1 (ix2 p (0 : Fin 1)) = A1 (ix2 r (0 : Fin 1)))
    (h2 : ∀ k : Fin 40, x2 (ix2 (0 : Fin 1) k) = A2 (ix2 (0 : Fin 1) k)) :
    k2_pay1 x0 x1 x2 (ix2 p q) = Cert.Gcn.logSoftmaxRows (Ideal.ofBits .f32 0xFF800000#32) A0 A1 A2 (ix2 r q) := by
  have hl : ∀ k : Fin 40, blockLogit x0 x1 x2 p k = Cert.Gcn.logitAt A0 A1 A2 r k := fun k => by
    unfold blockLogit Cert.Gcn.logitAt
    rw [h0 k, h1, h2 k]
  have hm : blockRowMax x0 x1 x2 p = Cert.Gcn.rowMaxAt (Ideal.ofBits .f32 0xFF800000#32) A0 A1 A2 r := by
    unfold blockRowMax Cert.Gcn.rowMaxAt
    exact congrArg ((Finset.univ : Finset (Fin 40)).fold max (Ideal.ofBits .f32 0xFF800000#32)) (funext hl)
  refine (logSoftmaxBlock_apply x0 x1 x2 p q).trans ?_
  rw [Cert.Gcn.logSoftmaxRows_ix2]
  unfold Cert.Gcn.logSoftmaxAt
  rw [hm, hl q]
  exact congrArg (fun b => (Cert.Gcn.logitAt A0 A1 A2 r q - Cert.Gcn.rowMaxAt (Ideal.ofBits .f32 0xFF800000#32) A0 A1 A2 r) - Ideal.log b)
    (Finset.sum_congr rfl fun q' _ => by rw [hl q'])

/-- WHAT POINT t WRITES BACK is block t of the rows' log-softmax of the arrays the region finds. -/
theorem flushed2_eq (c : Dev nD) (t : Fin cfg2.N) :
    (dat2 (F := Ideal) V c).flushed 3 t = ((cfg2.win 3).blk t).view.read (Elt Ideal)
      (Cert.Gcn.logSoftmaxRows (Ideal.ofBits .f32 0xFF800000#32) (V c main_v43 : S100000x40.Idx → EReal) (V c main_v15 : S100000x1.Idx → EReal) (V c main_v17 : S1x40.Idx → EReal)) := by
  show (cfg2.win 3).cut (grid2.coords t) ((dat2 V c).after 3 t) = _
  rw [after2_3]
  unfold out2_3
  rw [View.canon_unit_zero zeroOffsets2]
  simp only [View.ld_unit_zero (S := S5000x40) zeroOffsets2, View.ld_unit_zero (S := S5000x1) zeroOffsets2, View.ld_unit_zero (S := S1x40) zeroOffsets2]
  obtain ⟨-, -, -, -, -, -, e30, e31⟩ := blockIndex2 t
  have ht : t.val < 20 := Nat.lt_of_lt_of_eq t.isLt N_2
  funext j
  have hj0 : (j 0).val < 5000 := (j 0).isLt
  have hj1 : (j 1).val < 40 := (j 1).isLt
  have hx : (cfg2.win 3).xinj (grid2.coords t) j = (ix2 (⟨(j 0).val, hj0⟩ : Fin 5000) (⟨(j 1).val, hj1⟩ : Fin 40) : S5000x40.Idx) :=
    funext fun a => by match a with | ⟨0, _⟩ => rfl | ⟨1, _⟩ => rfl
  have hemb : ((cfg2.win 3).blk t).view.emb j = (ix2 (⟨t.val * 5000 + (j 0).val, by omega⟩ : Fin 100000) (⟨(j 1).val, hj1⟩ : Fin 40) : S100000x40.Idx) :=
    funext fun a => Fin.ext (by
      match a with
      | ⟨0, _⟩ => show win2_3.index t (0 : Fin 2) * 5000 + 1 * (j 0).val = t.val * 5000 + (j 0).val; rw [e30]; omega
      | ⟨1, _⟩ => show win2_3.index t (1 : Fin 2) * 40 + 1 * (j 1).val = (j 1).val; rw [e31]; omega)
  show k2_pay1 (iblk2 V c 0 t) (iblk2 V c 1 t) (iblk2 V c 2 t) ((cfg2.win 3).xinj (grid2.coords t) j)
    = Cert.Gcn.logSoftmaxRows (Ideal.ofBits .f32 0xFF800000#32) (V c main_v43 : S100000x40.Idx → EReal) (V c main_v15 : S100000x1.Idx → EReal) (V c main_v17 : S1x40.Idx → EReal) (((cfg2.win 3).blk t).view.emb j)
  rw [hx, hemb]
  refine logSoftmaxBlock_entry _ _ _ _ _ _ _ _ _ (fun k => ?_) ?_ (fun k => ?_)
  · exact aggBlock2_apply V c t _ _ rfl rfl
  · exact factorBlock2_apply V c t _ _ rfl rfl
  · exact biasBlock2_apply V c t _

/-! ## The twenty blocks cover the array -/

/-- An index of the result array is in point t's block iff each coordinate is in the block's range on its axis. -/
theorem mem_blk2 (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v44).slice (win2_3.rect t)).set ↔ _
  rw [View.set_slice_whole, Rect.mem_set_unit]
  exact Iff.rfl

/-- Row r lies in the block of point r / 5000. -/
theorem covered2 (i : S100000x40.Idx) : ∃ t : Fin cfg2.N, (cfg2.win 3).flush t = true ∧ i ∈ ((cfg2.win 3).blk t).view.set := by
  have hi0 : (i 0).val < 100000 := idx2_lt0 i
  have hi1 : (i 1).val < 40 := idx2_lt1 i
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, e30, e31⟩ := blockIndex2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 40 ≤ (i 1).val ∧ (i 1).val < win2_3.index t (1 : Fin 2) * 40 + 40; rw [e31]; omega

/-! ## The region's result array -/

/-- THE RESULT ARRAY after region 2 is the rows' log-softmax of the aggregate, the degree column and the bias row, as
    the region finds them; each row's maximum is folded from the value of the word the lane reduction starts at. -/
theorem final2 (c : Dev nD) : (dat2 (F := Ideal) V c).arrAt 3 cfg2.N
    = Cert.Gcn.logSoftmaxRows (Ideal.ofBits .f32 0xFF800000#32) (V c main_v43 : S100000x40.Idx → EReal) (V c main_v15 : S100000x1.Idx → EReal) (V c main_v17 : S1x40.Idx → EReal) :=
  (dat2 (F := Ideal) V c).arrAt_eq_of_cover 3
    (Cert.Gcn.logSoftmaxRows (Ideal.ofBits .f32 0xFF800000#32) (V c main_v43 : S100000x40.Idx → EReal) (V c main_v15 : S100000x1.Idx → EReal) (V c main_v17 : S1x40.Idx → EReal))
    (fun t _ => flushed2_eq V c t) covered2

end Cert.KernelIdeal.Blocks

end
-- ==== Proof.KernelValue.lean ====
/-
  What the idealized kernel program's result array holds, as one function of the argument arrays.

  Between its three row-blocked stages the program gathers rows of the stage's output along the edge list and adds them
  into the rows the edges point to (`aggregate128`, `aggregate40`: the source row index of an edge is wrapped by the node
  count when negative, the destination row is read as it stands). The stages are the three whole-array functions of
  Proof/Spec.lean (Proof/Region0–2.lean), each applied to the contents its stage finds. Reading the buffer contents
  back from stage to stage — a buffer nobody wrote in between keeps its contents — gives

    result = logSoftmaxRows lo (aggregate40 (scaledHidden (aggregate128 (scaledProduct x w₁ D) R C) D B₁ w₂) R C) D B₂

  with `R`, `C` the edge lists' source and destination rows (each followed by the self loops), `D` the column of degree
  factors and `B₁`, `B₂` the two biases as rows, all five as the first stretch of host operations leaves them.
-/
import proofs.«140534_j83777632075847_2_alg».proof.Proof.Gen.KernelIdeal.Frame
import proofs.«140534_j83777632075847_2_alg».proof.Proof.Spec
import proofs.«140534_j83777632075847_2_alg».proof.Proof.Aggregate
import proofs.«140534_j83777632075847_2_alg».proof.Proof.Region0
import proofs.«140534_j83777632075847_2_alg».proof.Proof.Region1
import proofs.«140534_j83777632075847_2_alg».proof.Proof.Region2
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stage's exit: its output is the scaled product, everything else as entered -/

theorem exit0_out : W4 m ρ c (Proc.devRef .tc main_v18)
    = Cert.Gcn.scaledProduct (W3 m ρ c (Proc.devRef .tc main_arg0)) (W3 m ρ c (Proc.devRef .tc main_arg2)) (W3 m ρ c (Proc.devRef .tc main_v15)) :=
  (W4_arr m ρ c 3).trans (final0 (V3 m ρ) c)

theorem exit0_degree : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem exit0_rows : W4 m ρ c (Proc.devRef .tc main_v5) = W3 m ρ c (Proc.devRef .tc main_v5) := W4_of_ne m ρ c main_v5 (by decide)
theorem exit0_cols : W4 m ρ c (Proc.devRef .tc main_v6) = W3 m ρ c (Proc.devRef .tc main_v6) := W4_of_ne m ρ c main_v6 (by decide)
theorem exit0_bias1 : W4 m ρ c (Proc.devRef .tc main_v16) = W3 m ρ c (Proc.devRef .tc main_v16) := W4_of_ne m ρ c main_v16 (by decide)
theorem exit0_bias2 : W4 m ρ c (Proc.devRef .tc main_v17) = W3 m ρ c (Proc.devRef .tc main_v17) := W4_of_ne m ρ c main_v17 (by decide)
theorem exit0_w2 : W4 m ρ c (Proc.devRef .tc main_arg4) = W3 m ρ c (Proc.devRef .tc main_arg4) := W4_of_ne m ρ c main_arg4 (by decide)

/-! ## The second stage's entry: the aggregate of the first stage's output; the rest untouched by the stretch -/

theorem entry1_aggregate : W5 m ρ c (Proc.devRef .tc main_v30)
    = aggregate128 (W4 m ρ c (Proc.devRef .tc main_v18)) (W4 m ρ c (Proc.devRef .tc main_v5)) (W4 m ρ c (Proc.devRef .tc main_v6)) := by
  show StableHlo.after hostOps1 (W4 m ρ c) (Proc.devRef .tc main_v30) = _
  after_results_simp
  rfl

theorem entry1_degree : W5 m ρ c (Proc.devRef .tc main_v15) = W4 m ρ c (Proc.devRef .tc main_v15) := by
  show StableHlo.after hostOps1 (W4 m ρ c) (Proc.devRef .tc main_v15) = _
  after_results_simp
theorem entry1_bias1 : W5 m ρ c (Proc.devRef .tc main_v16) = W4 m ρ c (Proc.devRef .tc main_v16) := by
  show StableHlo.after hostOps1 (W4 m ρ c) (Proc.devRef .tc main_v16) = _
  after_results_simp
theorem entry1_bias2 : W5 m ρ c (Proc.devRef .tc main_v17) = W4 m ρ c (Proc.devRef .tc main_v17) := by
  show StableHlo.after hostOps1 (W4 m ρ c) (Proc.devRef .tc main_v17) = _
  after_results_simp
theorem entry1_w2 : W5 m ρ c (Proc.devRef .tc main_arg4) = W4 m ρ c (Proc.devRef .tc main_arg4) := by
  show StableHlo.after hostOps1 (W4 m ρ c) (Proc.devRef .tc main_arg4) = _
  after_results_simp
theorem entry1_rows : W5 m ρ c (Proc.devRef .tc main_v5) = W4 m ρ c (Proc.devRef .tc main_v5) := by
  show StableHlo.after hostOps1 (W4 m ρ c) (Proc.devRef .tc main_v5) = _
  after_results_simp
theorem entry1_cols : W5 m ρ c (Proc.devRef .tc main_v6) = W4 m ρ c (Proc.devRef .tc main_v6) := by
  show StableHlo.after hostOps1 (W4 m ρ c) (Proc.devRef .tc main_v6) = _
  after_results_simp

/-! ## The second stage's exit -/

theorem exit1_out : W6 m ρ c (Proc.devRef .tc main_v31)
    = Cert.Gcn.scaledHidden (W5 m ρ c (Proc.devRef .tc main_v30)) (W5 m ρ c (Proc.devRef .tc main_v15))
        (W5 m ρ c (Proc.devRef .tc main_v16)) (W5 m ρ c (Proc.devRef .tc main_arg4)) :=
  (W6_arr m ρ c 4).trans (final1 (V5 m ρ) c)

theorem exit1_degree : W6 m ρ c (Proc.devRef .tc main_v15) = W5 m ρ c (Proc.devRef .tc main_v15) :=
  (W6_arr m ρ c 1).trans (((dat1 (V5 m ρ) c).arrAt_in 1 rfl _).trans (A_eq1 (V5 m ρ) c 1))

theorem exit1_rows : W6 m ρ c (Proc.devRef .tc main_v5) = W5 m ρ c (Proc.devRef .tc main_v5) := W6_of_ne m ρ c main_v5 (by decide)
theorem exit1_cols : W6 m ρ c (Proc.devRef .tc main_v6) = W5 m ρ c (Proc.devRef .tc main_v6) := W6_of_ne m ρ c main_v6 (by decide)
theorem exit1_bias2 : W6 m ρ c (Proc.devRef .tc main_v17) = W5 m ρ c (Proc.devRef .tc main_v17) := W6_of_ne m ρ c main_v17 (by decide)

/-! ## The third stage's entry -/

theorem entry2_aggregate : W7 m ρ c (Proc.devRef .tc main_v43)
    = aggregate40 (W6 m ρ c (Proc.devRef .tc main_v31)) (W6 m ρ c (Proc.devRef .tc main_v5)) (W6 m ρ c (Proc.devRef .tc main_v6)) := by
  show StableHlo.after hostOps2 (W6 m ρ c) (Proc.devRef .tc main_v43) = _
  after_results_simp
  rfl

theorem entry2_degree : W7 m ρ c (Proc.devRef .tc main_v15) = W6 m ρ c (Proc.devRef .tc main_v15) := by
  show StableHlo.after hostOps2 (W6 m ρ c) (Proc.devRef .tc main_v15) = _
  after_results_simp
theorem entry2_bias2 : W7 m ρ c (Proc.devRef .tc main_v17) = W6 m ρ c (Proc.devRef .tc main_v17) := by
  show StableHlo.after hostOps2 (W6 m ρ c) (Proc.devRef .tc main_v17) = _
  after_results_simp

/-! ## The result -/

/-- The result array after the run, from the contents the first stretch of host operations leaves. -/
theorem result_eq : W8 m ρ c (Proc.devRef .tc main_v44)
    = Cert.Gcn.logSoftmaxRows (Ideal.ofBits .f32 0xFF800000#32)
        (aggregate40
          (Cert.Gcn.scaledHidden
            (aggregate128
              (Cert.Gcn.scaledProduct (W3 m ρ c (Proc.devRef .tc main_arg0)) (W3 m ρ c (Proc.devRef .tc main_arg2)) (W3 m ρ c (Proc.devRef .tc main_v15)))
              (W3 m ρ c (Proc.devRef .tc main_v5)) (W3 m ρ c (Proc.devRef .tc main_v6)))
            (W3 m ρ c (Proc.devRef .tc main_v15)) (W3 m ρ c (Proc.devRef .tc main_v16)) (W3 m ρ c (Proc.devRef .tc main_arg4)))
          (W3 m ρ c (Proc.devRef .tc main_v5)) (W3 m ρ c (Proc.devRef .tc main_v6)))
        (W3 m ρ c (Proc.devRef .tc main_v15)) (W3 m ρ c (Proc.devRef .tc main_v17)) := by
  refine ((W8_arr m ρ c 3).trans (final2 (V7 m ρ) c)).trans ?_
  show Cert.Gcn.logSoftmaxRows _ (W7 m ρ c (Proc.devRef .tc main_v43)) (W7 m ρ c (Proc.devRef .tc main_v15)) (W7 m ρ c (Proc.devRef .tc main_v17)) = _
  rw [entry2_aggregate, entry2_degree, entry2_bias2, exit1_out, exit1_degree, exit1_rows, exit1_cols, exit1_bias2,
    entry1_aggregate, entry1_degree, entry1_bias1, entry1_bias2, entry1_w2, entry1_rows, entry1_cols,
    exit0_out, exit0_degree, exit0_rows, exit0_cols, exit0_bias1, exit0_bias2, exit0_w2]

end Cert.KernelIdeal.Blocks

end
-- ==== Proof.KernelInputs.lean ====
/-
  What the first stretch of host operations of the idealized kernel program leaves in the buffers the three stages and
  the two aggregations read, in terms of the argument arrays: the features and the two weight matrices untouched; the
  edges' source rows and destination rows, each followed by the self loops (the same lists the reference builds: its
  stages `val_main_v6`, `val_main_v7`); the two biases laid out as rows. (The column of degree factors is read in Proof/KernelDegree.lean.)
-/
import proofs.«140534_j83777632075847_2_alg».proof.Proof.Gen.KernelIdeal.Frame
import proofs.«140534_j83777632075847_2_alg».proof.Proof.RefRead
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem in_features : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

theorem in_weights1 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

theorem in_weights2 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp

theorem in_rows : W3 m ρ c (Proc.devRef .tc main_v5)
    = Cert.ReferenceIdeal.ReadP.val_main_v6 (F := Ideal) (m ((c.tc : Thread nD τ).loc main_arg1)) := by
  show StableHlo.after hostOps0_2 (StableHlo.after hostOps0_1 (StableHlo.after hostOps0 (W0 m ρ c))) (Proc.devRef .tc main_v5) = _
  after_results_simp
  rfl

theorem in_cols : W3 m ρ c (Proc.devRef .tc main_v6)
    = Cert.ReferenceIdeal.ReadP.val_main_v7 (F := Ideal) (m ((c.tc : Thread nD τ).loc main_arg1)) := by
  show StableHlo.after hostOps0_2 (StableHlo.after hostOps0_1 (StableHlo.after hostOps0 (W0 m ρ c))) (Proc.devRef .tc main_v6) = _
  after_results_simp
  rfl

theorem in_bias1 : W3 m ρ c (Proc.devRef .tc main_v16)
    = shapeCast S1x128 (m ((c.tc : Thread nD τ).loc main_arg3)) shapeCasts_S128_S1x128 := by
  show StableHlo.after hostOps0_2 (StableHlo.after hostOps0_1 (StableHlo.after hostOps0 (W0 m ρ c))) (Proc.devRef .tc main_v16) = _
  after_results_simp
  rfl

theorem in_bias2 : W3 m ρ c (Proc.devRef .tc main_v17)
    = shapeCast S1x40 (m ((c.tc : Thread nD τ).loc main_arg5)) shapeCasts_S40_S1x40 := by
  show StableHlo.after hostOps0_2 (StableHlo.after hostOps0_1 (StableHlo.after hostOps0 (W0 m ρ c))) (Proc.devRef .tc main_v17) = _
  after_results_simp
  rfl

end Cert.KernelIdeal.Blocks

end
-- ==== Proof.KernelDegree.lean ====
/-
  The degree column the three stages read. Before the first stage the host operations of the idealized kernel program
  build, from the edge list, each node's in-degree counted with its self loop, take one over its square root where the
  count is positive and zero elsewhere, and lay the result out as one column. The reference builds the same factors by
  the same operations (its stage `val_main_v15`); here the two are identified, a stretch of operations at a time, each
  stretch read from an arbitrary state of the buffers.
-/
import proofs.«140534_j83777632075847_2_alg».proof.Proof.Gen.KernelIdeal.Frame
import proofs.«140534_j83777632075847_2_alg».proof.Proof.RefRead
import Idealize.ShloMosaic.Lib.StableHlo.Run
import Idealize.ShloMosaic.Lib.Pipeline.Frame

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.StableHlo

/-! ## The first stretch of host operations, cut after the two edge lists -/

section Parts
variable {F : FTy → Type} [FloatOps F]

/-- The first seven operations: the edges' source rows and destination rows, each followed by the self loops. -/
abbrev edgeListOps : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The remaining eleven: the in-degree counted with the self loop, whether it is positive, one over its square root,
    and the zero the factor takes elsewhere. -/
abbrev countOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The first stretch is the two parts in a row. -/
theorem hostOps0_split : (hostOps0 : List (HloOp τ sig (Elt F))) = edgeListOps ++ countOps := rfl

end Parts

/-! ## Each part, from an arbitrary state of the buffers -/

/-- After the first part the destination rows with the self loops are the reference's list of them, of the edge array
    as the part finds it. -/
theorem edgeListOps_cols (W : Valuation τ sig (Elt Ideal)) :
    StableHlo.after (edgeListOps (F := Ideal)) W (Proc.devRef .tc main_v6)
      = Cert.ReferenceIdeal.ReadP.val_main_v7 (F := Ideal) (W (Proc.devRef .tc main_arg1)) := by
  after_results_simp
  rfl

/-- After the second part, from a state holding the reference's destination list: which counts are positive. -/
theorem countOps_positive (W : Valuation τ sig (Elt Ideal)) (x1 : (⟨S2x1600000, .i32⟩ : BufTy).Contents (Elt Ideal))
    (h6 : W (Proc.devRef .tc main_v6) = Cert.ReferenceIdeal.ReadP.val_main_v7 (F := Ideal) x1) :
    StableHlo.after (countOps (F := Ideal)) W (Proc.devRef .tc main_v12) = Cert.ReferenceIdeal.ReadP.val_main_v13 (F := Ideal) x1 := by
  after_results_simp
  rw [h6]
  rfl

/-- After the second part, from a state holding the reference's destination list: one over the square root of the counts. -/
theorem countOps_rsqrt (W : Valuation τ sig (Elt Ideal)) (x1 : (⟨S2x1600000, .i32⟩ : BufTy).Contents (Elt Ideal))
    (h6 : W (Proc.devRef .tc main_v6) = Cert.ReferenceIdeal.ReadP.val_main_v7 (F := Ideal) x1) :
    StableHlo.after (countOps (F := Ideal)) W (Proc.devRef .tc main_v13) = Cert.ReferenceIdeal.ReadP.val_main_v14 (F := Ideal) x1 := by
  after_results_simp
  rw [h6]
  rfl

/-- After the second part: the zero the factor takes where the count is not positive. -/
theorem countOps_zero (W : Valuation τ sig (Elt Ideal)) :
    StableHlo.after (countOps (F := Ideal)) W (Proc.devRef .tc main_cst_2) = Cert.ReferenceIdeal.ReadP.val_main_cst_2 (F := Ideal) := by
  after_results_simp
  rfl

/-- The second stretch selects, node by node, between the reciprocal root and the zero spread over the nodes. -/
theorem whereOps_select (W : Valuation τ sig (Elt Ideal)) :
    StableHlo.after (hostOps0_1 (F := Ideal)) W (Proc.devRef .tc main_v14)
      = select (W (Proc.devRef .tc main_v12)) (W (Proc.devRef .tc main_v13))
          (broadcastInDim S100000 ![] bcast_S_S100000 (id (W (Proc.devRef .tc main_cst_2)))) := by
  after_results_simp
  rfl

/-- The third stretch lays the factors out as one column. -/
theorem columnOps_degree (W : Valuation τ sig (Elt Ideal)) :
    StableHlo.after (hostOps0_2 (F := Ideal)) W (Proc.devRef .tc main_v15)
      = broadcastInDim S100000x1 ![0] bcast_S100000_S100000x1_0 (W (Proc.devRef .tc main_v14)) := by
  after_results_simp

/-- The second stretch, from a state holding the reference's three ingredients, leaves the reference's degree factors. -/
theorem whereOps_factor (W : Valuation τ sig (Elt Ideal)) (x1 : (⟨S2x1600000, .i32⟩ : BufTy).Contents (Elt Ideal))
    (h12 : W (Proc.devRef .tc main_v12) = Cert.ReferenceIdeal.ReadP.val_main_v13 (F := Ideal) x1)
    (h13 : W (Proc.devRef .tc main_v13) = Cert.ReferenceIdeal.ReadP.val_main_v14 (F := Ideal) x1)
    (hz : W (Proc.devRef .tc main_cst_2) = Cert.ReferenceIdeal.ReadP.val_main_cst_2 (F := Ideal)) :
    StableHlo.after (hostOps0_1 (F := Ideal)) W (Proc.devRef .tc main_v14) = Cert.ReferenceIdeal.ReadP.val_main_v15 (F := Ideal) x1 := by
  rw [whereOps_select, h12, h13, hz]
  rfl

/-- The third stretch, from a state holding the factors `X`, leaves them laid out as one column. -/
theorem columnOps_column (W : Valuation τ sig (Elt Ideal)) (X : (⟨S100000, .f32⟩ : BufTy).Contents (Elt Ideal))
    (h : W (Proc.devRef .tc main_v14) = X) :
    StableHlo.after (hostOps0_2 (F := Ideal)) W (Proc.devRef .tc main_v15)
      = broadcastInDim S100000x1 ![0] bcast_S100000_S100000x1_0 X := by
  rw [columnOps_degree, h]

/-! ## The three stretches in a row -/

variable (m : (ℓ : Loc nD τ sig) → Buf (Elt Ideal) ℓ) (ρ : Dev nD → PrngReg) (c : Dev nD)

/-- After the first part, from the launch contents, the destination list the second part starts from is the
    reference's, of the edge argument. -/
theorem launch_cols :
    StableHlo.after (edgeListOps (F := Ideal)) (W0 m ρ c) (Proc.devRef .tc main_v6)
      = Cert.ReferenceIdeal.ReadP.val_main_v7 (F := Ideal) (m ((c.tc : Thread nD τ).loc main_arg1)) :=
  edgeListOps_cols (W0 m ρ c)

/-- After the whole first stretch, from the launch contents: which counts are positive, -/
theorem launch_positive :
    StableHlo.after (hostOps0 (F := Ideal)) (W0 m ρ c) (Proc.devRef .tc main_v12)
      = Cert.ReferenceIdeal.ReadP.val_main_v13 (F := Ideal) (m ((c.tc : Thread nD τ).loc main_arg1)) := by
  rw [hostOps0_split, StableHlo.after_append]
  exact countOps_positive _ _ (launch_cols m ρ c)

/-- one over the square root of the counts, -/
theorem launch_rsqrt :
    StableHlo.after (hostOps0 (F := Ideal)) (W0 m ρ c) (Proc.devRef .tc main_v13)
      = Cert.ReferenceIdeal.ReadP.val_main_v14 (F := Ideal) (m ((c.tc : Thread nD τ).loc main_arg1)) := by
  rw [hostOps0_split, StableHlo.after_append]
  exact countOps_rsqrt _ _ (launch_cols m ρ c)

/-- and the zero. -/
theorem launch_zero :
    StableHlo.after (hostOps0 (F := Ideal)) (W0 m ρ c) (Proc.devRef .tc main_cst_2)
      = Cert.ReferenceIdeal.ReadP.val_main_cst_2 (F := Ideal) := by
  rw [hostOps0_split, StableHlo.after_append]
  exact countOps_zero _

/-- THE DEGREE COLUMN the first stage finds is the reference's degree factors of the edge argument, laid out as a column. -/
theorem in_degree : W3 m ρ c (Proc.devRef .tc main_v15)
    = broadcastInDim S100000x1 ![0] bcast_S100000_S100000x1_0
        (Cert.ReferenceIdeal.ReadP.val_main_v15 (F := Ideal) (m ((c.tc : Thread nD τ).loc main_arg1))) := by
  show StableHlo.after hostOps0_2 (StableHlo.after hostOps0_1 (StableHlo.after hostOps0 (W0 m ρ c))) (Proc.devRef .tc main_v15) = _
  exact columnOps_column _ _ (whereOps_factor _ _ (launch_positive m ρ c) (launch_rsqrt m ρ c) (launch_zero m ρ c))

end Cert.KernelIdeal.Blocks

end
-- ==== Proof.RefRunByParts.lean ====
import proofs.«140534_j83777632075847_2_alg».proof.Proof.RefRun
import proofs.«140534_j83777632075847_2_alg».proof.Proof.RefRead
import Idealize.ShloMosaic.Lib.StableHlo.Run
import Idealize.ShloMosaic.Lib.Pipeline.Frame

noncomputable section

namespace Cert.ReferenceIdeal.ByParts

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! The program's run, read back by parts. The list of the operations is cut into consecutive parts such that each join of
    two pieces along an axis is the first operation of its part; for an arbitrary valuation at a part's entry, each value the
    part writes that is read later is the corresponding stage of the stage-by-stage reading, given that the values the part reads
    are; the values written earlier and read later are kept. The parts are then composed in order. -/

/-- operations 1 to 6 of the program -/
abbrev pA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0) ]

/-- operations 7 to 7 of the program -/
abbrev pB : List (HloOp τ sig (Elt F)) :=
  [ binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- operations 8 to 8 of the program -/
abbrev pC : List (HloOp τ sig (Elt F)) :=
  [ binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- operations 9 to 22 of the program -/
abbrev pD1 : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- operations 23 to 41 of the program -/
abbrev pD2 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- operations 42 to 53 of the program -/
abbrev pD3 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)) ]

/-- operations 54 to 65 of the program -/
abbrev pD4 : List (HloOp τ sig (Elt F)) :=
  [ nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_v49 (iotaInDim S100000 32 0) ]

/-- operations 66 to 66 of the program -/
abbrev pE : List (HloOp τ sig (Elt F)) :=
  [ binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- operations 67 to 67 of the program -/
abbrev pG : List (HloOp τ sig (Elt F)) :=
  [ binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- operations 68 to 81 of the program -/
abbrev pH1 : List (HloOp τ sig (Elt F)) :=
  [ nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf (F := F) .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select ]

/-- operations 82 to 100 of the program -/
abbrev pH2 : List (HloOp τ sig (Elt F)) :=
  [ nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)) ]

/-- operations 101 to 112 of the program -/
abbrev pH3 : List (HloOp τ sig (Elt F)) :=
  [ nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x40 ![0, 1] bcast_S1700000x1_S1700000x40_0_1 : (⟨S1700000x1, .f32⟩ : BufTy).Contents (Elt F) → (⟨S1700000x40, .f32⟩ : BufTy).Contents (Elt F)),
    binary main_v81 main_v83 main_v84 (mulf : (⟨S1700000x40, .f32⟩ : BufTy).Contents (Elt F) → (⟨S1700000x40, .f32⟩ : BufTy).Contents (Elt F) → (⟨S1700000x40, .f32⟩ : BufTy).Contents (Elt F)) ]

/-- operations 113 to 119 of the program -/
abbrev pH4 : List (HloOp τ sig (Elt F)) :=
  [ nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)) ]

/-- operations 120 to 134 of the program -/
abbrev pH5 : List (HloOp τ sig (Elt F)) :=
  [ TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

set_option maxRecDepth 8192 in
/-- The program's operations are the parts in order. -/
theorem ops_eq : (ops : List (HloOp τ sig (Elt F))) = pA ++ pB ++ pC ++ pD1 ++ pD2 ++ pD3 ++ pD4 ++ pE ++ pG ++ pH1 ++ pH2 ++ pH3 ++ pH4 ++ pH5 := rfl

/-- two pieces joined along the one axis, as a function of the pieces -/
def cat2 (a : (⟨S1600000, .i32⟩ : BufTy).Contents (Elt F)) (b : (⟨S100000, .i32⟩ : BufTy).Contents (Elt F)) :
    (⟨S1700000, .i32⟩ : BufTy).Contents (Elt F) :=
  concatenate S1700000 0 [⟨S1600000, a⟩, ⟨S100000, b⟩] concatenates_S1600000_S100000_S1700000_d0

section Casts

variable {Val : EltTy → Type} {T : BufTy}

/-- Contents carried to a typed reference's buffer type and back are the contents. -/
theorem ofBuf_toBuf (x : TRef sig T) (v : T.Contents Val) : x.ofBuf (x.toBuf v) = v := by
  obtain ⟨r, h, h2, h3⟩ := x
  subst h
  rfl

/-- Contents of a typed reference's buffer, carried to the value's type, are the contents they are. -/
theorem ofBuf_eq (x : TRef sig T) (u : x.ref.ty.Contents Val) (v : T.Contents Val) (e : HEq u v) : x.ofBuf u = v := by
  obtain ⟨r, h, h2, h3⟩ := x
  subst h
  exact eq_of_heq e

/-- Contents at the value's type, carried to a typed reference's buffer type, are the contents they are. -/
theorem toBuf_eq (x : TRef sig T) (v : T.Contents Val) (w : x.ref.ty.Contents Val) (e : HEq v w) : x.toBuf v = w := by
  obtain ⟨r, h, h2, h3⟩ := x
  subst h
  exact eq_of_heq e

end Casts

/-- What part `pA` does not write and is read later keeps its contents through it. -/
theorem pA_keep (W : Valuation τ sig (Elt F)) :
    after pA W (Proc.devRef .tc main_arg0) = W (Proc.devRef .tc main_arg0)
    ∧ after pA W (Proc.devRef .tc main_arg1) = W (Proc.devRef .tc main_arg1)
    ∧ after pA W (Proc.devRef .tc main_arg2) = W (Proc.devRef .tc main_arg2)
    ∧ after pA W (Proc.devRef .tc main_arg3) = W (Proc.devRef .tc main_arg3)
    ∧ after pA W (Proc.devRef .tc main_arg4) = W (Proc.devRef .tc main_arg4)
    ∧ after pA W (Proc.devRef .tc main_arg5) = W (Proc.devRef .tc main_arg5) := by
  refine ⟨?_, ?_, ?_, ?_, ?_, ?_⟩ <;> after_results_simp

/-- `main_v1` after part `pA`, from what the part reads. -/
theorem pA_v1 (W : Valuation τ sig (Elt F)) (x1 : (⟨S2x1600000, .i32⟩ : BufTy).Contents (Elt F))
    (h_arg1 : W (Proc.devRef .tc main_arg1) = x1) :
    after pA W (Proc.devRef .tc main_v1) = val_main_v1 (F := F) x1 := by
  after_results_simp
  rw [h_arg1]; rfl

/-- `main_v3` after part `pA`, from what the part reads. -/
theorem pA_v3 (W : Valuation τ sig (Elt F)) (x1 : (⟨S2x1600000, .i32⟩ : BufTy).Contents (Elt F))
    (h_arg1 : W (Proc.devRef .tc main_arg1) = x1) :
    after pA W (Proc.devRef .tc main_v3) = val_main_v3 (F := F) x1 := by
  after_results_simp
  rw [h_arg1]; rfl

/-- `main_v4` after part `pA`, from what the part reads. -/
theorem pA_v4 (W : Valuation τ sig (Elt F)) (x0 : (⟨S100000x128, .f32⟩ : BufTy).Contents (Elt F)) (x2 : (⟨S128x128, .f32⟩ : BufTy).Contents (Elt F))
    (h_arg0 : W (Proc.devRef .tc main_arg0) = x0)
    (h_arg2 : W (Proc.devRef .tc main_arg2) = x2) :
    after pA W (Proc.devRef .tc main_v4) = val_main_v4 (F := F) x0 x2 := by
  after_results_simp
  rw [h_arg0, h_arg2]; rfl

/-- `main_v5` after part `pA`, from what the part reads. -/
theorem pA_v5 (W : Valuation τ sig (Elt F)) :
    after pA W (Proc.devRef .tc main_v5) = val_main_v5 (F := F) := by
  after_results_simp
  rfl

/-- What part `pB` does not write and is read later keeps its contents through it. -/
theorem pB_keep (W : Valuation τ sig (Elt F)) :
    after pB W (Proc.devRef .tc main_arg0) = W (Proc.devRef .tc main_arg0)
    ∧ after pB W (Proc.devRef .tc main_arg1) = W (Proc.devRef .tc main_arg1)
    ∧ after pB W (Proc.devRef .tc main_arg2) = W (Proc.devRef .tc main_arg2)
    ∧ after pB W (Proc.devRef .tc main_arg3) = W (Proc.devRef .tc main_arg3)
    ∧ after pB W (Proc.devRef .tc main_arg4) = W (Proc.devRef .tc main_arg4)
    ∧ after pB W (Proc.devRef .tc main_arg5) = W (Proc.devRef .tc main_arg5)
    ∧ after pB W (Proc.devRef .tc main_v1) = W (Proc.devRef .tc main_v1)
    ∧ after pB W (Proc.devRef .tc main_v3) = W (Proc.devRef .tc main_v3)
    ∧ after pB W (Proc.devRef .tc main_v4) = W (Proc.devRef .tc main_v4)
    ∧ after pB W (Proc.devRef .tc main_v5) = W (Proc.devRef .tc main_v5) := by
  refine ⟨?_, ?_, ?_, ?_, ?_, ?_, ?_, ?_, ?_, ?_⟩ <;> after_results_simp

/-- `main_v6` after part `pB`, from what the part reads. -/
theorem pB_v6 (W : Valuation τ sig (Elt F)) (x1 : (⟨S2x1600000, .i32⟩ : BufTy).Contents (Elt F))
    (h_v1 : W (Proc.devRef .tc main_v1) = val_main_v1 (F := F) x1)
    (h_v5 : W (Proc.devRef .tc main_v5) = val_main_v5 (F := F)) :
    after pB W (Proc.devRef .tc main_v6) = val_main_v6 (F := F) x1 := by
  have e : after pB W (Proc.devRef .tc main_v6) = cat2 (W (Proc.devRef .tc main_v1)) (W (Proc.devRef .tc main_v5)) := by
    after_results_simp
    rfl
  rw [e, h_v1, h_v5]; rfl

/-- What part `pC` does not write and is read later keeps its contents through it. -/
theorem pC_keep (W : Valuation τ sig (Elt F)) :
    after pC W (Proc.devRef .tc main_arg0) = W (Proc.devRef .tc main_arg0)
    ∧ after pC W (Proc.devRef .tc main_arg1) = W (Proc.devRef .tc main_arg1)
    ∧ after pC W (Proc.devRef .tc main_arg2) = W (Proc.devRef .tc main_arg2)
    ∧ after pC W (Proc.devRef .tc main_arg3) = W (Proc.devRef .tc main_arg3)
    ∧ after pC W (Proc.devRef .tc main_arg4) = W (Proc.devRef .tc main_arg4)
    ∧ after pC W (Proc.devRef .tc main_arg5) = W (Proc.devRef .tc main_arg5)
    ∧ after pC W (Proc.devRef .tc main_v1) = W (Proc.devRef .tc main_v1)
    ∧ after pC W (Proc.devRef .tc main_v3) = W (Proc.devRef .tc main_v3)
    ∧ after pC W (Proc.devRef .tc main_v4) = W (Proc.devRef .tc main_v4)
    ∧ after pC W (Proc.devRef .tc main_v6) = W (Proc.devRef .tc main_v6) := by
  refine ⟨?_, ?_, ?_, ?_, ?_, ?_, ?_, ?_, ?_, ?_⟩ <;> after_results_simp

/-- `main_v7` after part `pC`, from what the part reads. -/
theorem pC_v7 (W : Valuation τ sig (Elt F)) (x1 : (⟨S2x1600000, .i32⟩ : BufTy).Contents (Elt F))
    (h_v3 : W (Proc.devRef .tc main_v3) = val_main_v3 (F := F) x1)
    (h_v5 : W (Proc.devRef .tc main_v5) = val_main_v5 (F := F)) :
    after pC W (Proc.devRef .tc main_v7) = val_main_v7 (F := F) x1 := by
  have e : after pC W (Proc.devRef .tc main_v7) = cat2 (W (Proc.devRef .tc main_v3)) (W (Proc.devRef .tc main_v5)) := by
    after_results_simp
    rfl
  rw [e, h_v3, h_v5]; rfl

/-- What part `pD1` does not write and is read later keeps its contents through it. -/
theorem pD1_keep (W : Valuation τ sig (Elt F)) :
    after pD1 W (Proc.devRef .tc main_arg0) = W (Proc.devRef .tc main_arg0)
    ∧ after pD1 W (Proc.devRef .tc main_arg1) = W (Proc.devRef .tc main_arg1)
    ∧ after pD1 W (Proc.devRef .tc main_arg2) = W (Proc.devRef .tc main_arg2)
    ∧ after pD1 W (Proc.devRef .tc main_arg3) = W (Proc.devRef .tc main_arg3)
    ∧ after pD1 W (Proc.devRef .tc main_arg4) = W (Proc.devRef .tc main_arg4)
    ∧ after pD1 W (Proc.devRef .tc main_arg5) = W (Proc.devRef .tc main_arg5)
    ∧ after pD1 W (Proc.devRef .tc main_v1) = W (Proc.devRef .tc main_v1)
    ∧ after pD1 W (Proc.devRef .tc main_v3) = W (Proc.devRef .tc main_v3)
    ∧ after pD1 W (Proc.devRef .tc main_v4) = W (Proc.devRef .tc main_v4)
    ∧ after pD1 W (Proc.devRef .tc main_v6) = W (Proc.devRef .tc main_v6)
    ∧ after pD1 W (Proc.devRef .tc main_v7) = W (Proc.devRef .tc main_v7) := by
  refine ⟨?_, ?_, ?_, ?_, ?_, ?_, ?_, ?_, ?_, ?_, ?_⟩ <;> after_results_simp

/-- `main_v15` after part `pD1`, from what the part reads. -/
theorem pD1_v15 (W : Valuation τ sig (Elt F)) (x1 : (⟨S2x1600000, .i32⟩ : BufTy).Contents (Elt F))
    (h_v7 : W (Proc.devRef .tc main_v7) = val_main_v7 (F := F) x1) :
    after pD1 W (Proc.devRef .tc main_v15) = val_main_v15 (F := F) x1 := by
  after_results_simp
  rw [h_v7]; rfl

/-- What part `pD2` does not write and is read later keeps its contents through it. -/
theorem pD2_keep (W : Valuation τ sig (Elt F)) :
    after pD2 W (Proc.devRef .tc main_arg0) = W (Proc.devRef .tc main_arg0)
    ∧ after pD2 W (Proc.devRef .tc main_arg1) = W (Proc.devRef .tc main_arg1)
    ∧ after pD2 W (Proc.devRef .tc main_arg2) = W (Proc.devRef .tc main_arg2)
    ∧ after pD2 W (Proc.devRef .tc main_arg3) = W (Proc.devRef .tc main_arg3)
    ∧ after pD2 W (Proc.devRef .tc main_arg4) = W (Proc.devRef .tc main_arg4)
    ∧ after pD2 W (Proc.devRef .tc main_arg5) = W (Proc.devRef .tc main_arg5)
    ∧ after pD2 W (Proc.devRef .tc main_v1) = W (Proc.devRef .tc main_v1)
    ∧ after pD2 W (Proc.devRef .tc main_v3) = W (Proc.devRef .tc main_v3)
    ∧ after pD2 W (Proc.devRef .tc main_v4) = W (Proc.devRef .tc main_v4)
    ∧ after pD2 W (Proc.devRef .tc main_v6) = W (Proc.devRef .tc main_v6)
    ∧ after pD2 W (Proc.devRef .tc main_v7) = W (Proc.devRef .tc main_v7) := by
  refine ⟨?_, ?_, ?_, ?_, ?_, ?_, ?_, ?_, ?_, ?_, ?_⟩ <;> after_results_simp

/-- `main_v30` after part `pD2`, from what the part reads. -/
theorem pD2_v30 (W : Valuation τ sig (Elt F)) (x1 : (⟨S2x1600000, .i32⟩ : BufTy).Contents (Elt F))
    (h_v6 : W (Proc.devRef .tc main_v6) = val_main_v6 (F := F) x1)
    (h_v15 : W (Proc.devRef .tc main_v15) = val_main_v15 (F := F) x1)
    (h_v7 : W (Proc.devRef .tc main_v7) = val_main_v7 (F := F) x1) :
    after pD2 W (Proc.devRef .tc main_v30) = val_main_v30 (F := F) x1 := by
  after_results_simp
  rw [h_v6, h_v15, h_v7]; rfl

/-- What part `pD3` does not write and is read later keeps its contents through it. -/
theorem pD3_keep (W : Valuation τ sig (Elt F)) :
    after pD3 W (Proc.devRef .tc main_arg0) = W (Proc.devRef .tc main_arg0)
    ∧ after pD3 W (Proc.devRef .tc main_arg1) = W (Proc.devRef .tc main_arg1)
    ∧ after pD3 W (Proc.devRef .tc main_arg2) = W (Proc.devRef .tc main_arg2)
    ∧ after pD3 W (Proc.devRef .tc main_arg3) = W (Proc.devRef .tc main_arg3)
    ∧ after pD3 W (Proc.devRef .tc main_arg4) = W (Proc.devRef .tc main_arg4)
    ∧ after pD3 W (Proc.devRef .tc main_arg5) = W (Proc.devRef .tc main_arg5)
    ∧ after pD3 W (Proc.devRef .tc main_v1) = W (Proc.devRef .tc main_v1)
    ∧ after pD3 W (Proc.devRef .tc main_v3) = W (Proc.devRef .tc main_v3)
    ∧ after pD3 W (Proc.devRef .tc main_v7) = W (Proc.devRef .tc main_v7) := by
  refine ⟨?_, ?_, ?_, ?_, ?_, ?_, ?_, ?_, ?_⟩ <;> after_results_simp

/-- `main_v40` after part `pD3`, from what the part reads. -/
theorem pD3_v40 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F))
    (h_v6 : W (Proc.devRef .tc main_v6) = val_main_v6 (F := F) x1)
    (h_v4 : W (Proc.devRef .tc main_v4) = val_main_v4 (F := F) x0 x2)
    (h_v30 : W (Proc.devRef .tc main_v30) = val_main_v30 (F := F) x1) :
    after pD3 W (Proc.devRef .tc main_v40) = val_main_v40 (F := F) x0 x1 x2 := by
  after_results_simp
  rw [h_v6, h_v4, h_v30]; rfl

/-- What part `pD4` does not write and is read later keeps its contents through it. -/
theorem pD4_keep (W : Valuation τ sig (Elt F)) :
    after pD4 W (Proc.devRef .tc main_arg0) = W (Proc.devRef .tc main_arg0)
    ∧ after pD4 W (Proc.devRef .tc main_arg1) = W (Proc.devRef .tc main_arg1)
    ∧ after pD4 W (Proc.devRef .tc main_arg2) = W (Proc.devRef .tc main_arg2)
    ∧ after pD4 W (Proc.devRef .tc main_arg3) = W (Proc.devRef .tc main_arg3)
    ∧ after pD4 W (Proc.devRef .tc main_arg4) = W (Proc.devRef .tc main_arg4)
    ∧ after pD4 W (Proc.devRef .tc main_arg5) = W (Proc.devRef .tc main_arg5)
    ∧ after pD4 W (Proc.devRef .tc main_v1) = W (Proc.devRef .tc main_v1)
    ∧ after pD4 W (Proc.devRef .tc main_v3) = W (Proc.devRef .tc main_v3) := by
  refine ⟨?_, ?_, ?_, ?_, ?_, ?_, ?_, ?_⟩ <;> after_results_simp

/-- `main_v48` after part `pD4`, from what the part reads. -/
theorem pD4_v48 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F))
    (h_v7 : W (Proc.devRef .tc main_v7) = val_main_v7 (F := F) x1)
    (h_v40 : W (Proc.devRef .tc main_v40) = val_main_v40 (F := F) x0 x1 x2)
    (h_arg3 : W (Proc.devRef .tc main_arg3) = x3)
    (h_arg4 : W (Proc.devRef .tc main_arg4) = x4) :
    after pD4 W (Proc.devRef .tc main_v48) = val_main_v48 (F := F) x0 x1 x2 x3 x4 := by
  after_results_simp
  rw [h_v7, h_v40, h_arg3, h_arg4]; rfl

/-- `main_v49` after part `pD4`, from what the part reads. -/
theorem pD4_v49 (W : Valuation τ sig (Elt F)) :
    after pD4 W (Proc.devRef .tc main_v49) = val_main_v49 (F := F) := by
  after_results_simp
  rfl

/-- What part `pE` does not write and is read later keeps its contents through it. -/
theorem pE_keep (W : Valuation τ sig (Elt F)) :
    after pE W (Proc.devRef .tc main_arg0) = W (Proc.devRef .tc main_arg0)
    ∧ after pE W (Proc.devRef .tc main_arg1) = W (Proc.devRef .tc main_arg1)
    ∧ after pE W (Proc.devRef .tc main_arg2) = W (Proc.devRef .tc main_arg2)
    ∧ after pE W (Proc.devRef .tc main_arg3) = W (Proc.devRef .tc main_arg3)
    ∧ after pE W (Proc.devRef .tc main_arg4) = W (Proc.devRef .tc main_arg4)
    ∧ after pE W (Proc.devRef .tc main_arg5) = W (Proc.devRef .tc main_arg5)
    ∧ after pE W (Proc.devRef .tc main_v3) = W (Proc.devRef .tc main_v3)
    ∧ after pE W (Proc.devRef .tc main_v48) = W (Proc.devRef .tc main_v48)
    ∧ after pE W (Proc.devRef .tc main_v49) = W (Proc.devRef .tc main_v49) := by
  refine ⟨?_, ?_, ?_, ?_, ?_, ?_, ?_, ?_, ?_⟩ <;> after_results_simp

/-- `main_v50` after part `pE`, from what the part reads. -/
theorem pE_v50 (W : Valuation τ sig (Elt F)) (x1 : (⟨S2x1600000, .i32⟩ : BufTy).Contents (Elt F))
    (h_v1 : W (Proc.devRef .tc main_v1) = val_main_v1 (F := F) x1)
    (h_v49 : W (Proc.devRef .tc main_v49) = val_main_v49 (F := F)) :
    after pE W (Proc.devRef .tc main_v50) = val_main_v50 (F := F) x1 := by
  have e : after pE W (Proc.devRef .tc main_v50) = cat2 (W (Proc.devRef .tc main_v1)) (W (Proc.devRef .tc main_v49)) := by
    after_results_simp
    rfl
  rw [e, h_v1, h_v49]; rfl

/-- What part `pG` does not write and is read later keeps its contents through it. -/
theorem pG_keep (W : Valuation τ sig (Elt F)) :
    after pG W (Proc.devRef .tc main_arg0) = W (Proc.devRef .tc main_arg0)
    ∧ after pG W (Proc.devRef .tc main_arg1) = W (Proc.devRef .tc main_arg1)
    ∧ after pG W (Proc.devRef .tc main_arg2) = W (Proc.devRef .tc main_arg2)
    ∧ after pG W (Proc.devRef .tc main_arg3) = W (Proc.devRef .tc main_arg3)
    ∧ after pG W (Proc.devRef .tc main_arg4) = W (Proc.devRef .tc main_arg4)
    ∧ after pG W (Proc.devRef .tc main_arg5) = W (Proc.devRef .tc main_arg5)
    ∧ after pG W (Proc.devRef .tc main_v48) = W (Proc.devRef .tc main_v48)
    ∧ after pG W (Proc.devRef .tc main_v50) = W (Proc.devRef .tc main_v50) := by
  refine ⟨?_, ?_, ?_, ?_, ?_, ?_, ?_, ?_⟩ <;> after_results_simp

/-- `main_v51` after part `pG`, from what the part reads. -/
theorem pG_v51 (W : Valuation τ sig (Elt F)) (x1 : (⟨S2x1600000, .i32⟩ : BufTy).Contents (Elt F))
    (h_v3 : W (Proc.devRef .tc main_v3) = val_main_v3 (F := F) x1)
    (h_v49 : W (Proc.devRef .tc main_v49) = val_main_v49 (F := F)) :
    after pG W (Proc.devRef .tc main_v51) = val_main_v51 (F := F) x1 := by
  have e : after pG W (Proc.devRef .tc main_v51) = cat2 (W (Proc.devRef .tc main_v3)) (W (Proc.devRef .tc main_v49)) := by
    after_results_simp
    rfl
  rw [e, h_v3, h_v49]; rfl

/-- What part `pH1` does not write and is read later keeps its contents through it. -/
theorem pH1_keep (W : Valuation τ sig (Elt F)) :
    after pH1 W (Proc.devRef .tc main_arg0) = W (Proc.devRef .tc main_arg0)
    ∧ after pH1 W (Proc.devRef .tc main_arg1) = W (Proc.devRef .tc main_arg1)
    ∧ after pH1 W (Proc.devRef .tc main_arg2) = W (Proc.devRef .tc main_arg2)
    ∧ after pH1 W (Proc.devRef .tc main_arg3) = W (Proc.devRef .tc main_arg3)
    ∧ after pH1 W (Proc.devRef .tc main_arg4) = W (Proc.devRef .tc main_arg4)
    ∧ after pH1 W (Proc.devRef .tc main_arg5) = W (Proc.devRef .tc main_arg5)
    ∧ after pH1 W (Proc.devRef .tc main_v48) = W (Proc.devRef .tc main_v48)
    ∧ after pH1 W (Proc.devRef .tc main_v50) = W (Proc.devRef .tc main_v50)
    ∧ after pH1 W (Proc.devRef .tc main_v51) = W (Proc.devRef .tc main_v51) := by
  refine ⟨?_, ?_, ?_, ?_, ?_, ?_, ?_, ?_, ?_⟩ <;> after_results_simp

/-- `main_v59` after part `pH1`, from what the part reads. -/
theorem pH1_v59 (W : Valuation τ sig (Elt F)) (x1 : (⟨S2x1600000, .i32⟩ : BufTy).Contents (Elt F))
    (h_v51 : W (Proc.devRef .tc main_v51) = val_main_v51 (F := F) x1) :
    after pH1 W (Proc.devRef .tc main_v59) = val_main_v59 (F := F) x1 := by
  after_results_simp
  rw [h_v51]; rfl

/-- What part `pH2` does not write and is read later keeps its contents through it. -/
theorem pH2_keep (W : Valuation τ sig (Elt F)) :
    after pH2 W (Proc.devRef .tc main_arg0) = W (Proc.devRef .tc main_arg0)
    ∧ after pH2 W (Proc.devRef .tc main_arg1) = W (Proc.devRef .tc main_arg1)
    ∧ after pH2 W (Proc.devRef .tc main_arg2) = W (Proc.devRef .tc main_arg2)
    ∧ after pH2 W (Proc.devRef .tc main_arg3) = W (Proc.devRef .tc main_arg3)
    ∧ after pH2 W (Proc.devRef .tc main_arg4) = W (Proc.devRef .tc main_arg4)
    ∧ after pH2 W (Proc.devRef .tc main_arg5) = W (Proc.devRef .tc main_arg5)
    ∧ after pH2 W (Proc.devRef .tc main_v48) = W (Proc.devRef .tc main_v48)
    ∧ after pH2 W (Proc.devRef .tc main_v50) = W (Proc.devRef .tc main_v50)
    ∧ after pH2 W (Proc.devRef .tc main_v51) = W (Proc.devRef .tc main_v51) := by
  refine ⟨?_, ?_, ?_, ?_, ?_, ?_, ?_, ?_, ?_⟩ <;> after_results_simp

/-- `main_v74` after part `pH2`, from what the part reads. -/
theorem pH2_v74 (W : Valuation τ sig (Elt F)) (x1 : (⟨S2x1600000, .i32⟩ : BufTy).Contents (Elt F))
    (h_v50 : W (Proc.devRef .tc main_v50) = val_main_v50 (F := F) x1)
    (h_v59 : W (Proc.devRef .tc main_v59) = val_main_v59 (F := F) x1)
    (h_v51 : W (Proc.devRef .tc main_v51) = val_main_v51 (F := F) x1) :
    after pH2 W (Proc.devRef .tc main_v74) = val_main_v74 (F := F) x1 := by
  after_results_simp
  rw [h_v50, h_v59, h_v51]; rfl

/-- What part `pH3` does not write and is read later keeps its contents through it. -/
theorem pH3_keep (W : Valuation τ sig (Elt F)) :
    after pH3 W (Proc.devRef .tc main_arg0) = W (Proc.devRef .tc main_arg0)
    ∧ after pH3 W (Proc.devRef .tc main_arg1) = W (Proc.devRef .tc main_arg1)
    ∧ after pH3 W (Proc.devRef .tc main_arg2) = W (Proc.devRef .tc main_arg2)
    ∧ after pH3 W (Proc.devRef .tc main_arg3) = W (Proc.devRef .tc main_arg3)
    ∧ after pH3 W (Proc.devRef .tc main_arg4) = W (Proc.devRef .tc main_arg4)
    ∧ after pH3 W (Proc.devRef .tc main_arg5) = W (Proc.devRef .tc main_arg5)
    ∧ after pH3 W (Proc.devRef .tc main_v51) = W (Proc.devRef .tc main_v51) := by
  refine ⟨?_, ?_, ?_, ?_, ?_, ?_, ?_⟩ <;> after_results_simp

/-- `main_v84` after part `pH3`, from what the part reads. -/
theorem pH3_v84 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F))
    (h_v50 : W (Proc.devRef .tc main_v50) = val_main_v50 (F := F) x1)
    (h_v48 : W (Proc.devRef .tc main_v48) = val_main_v48 (F := F) x0 x1 x2 x3 x4)
    (h_v74 : W (Proc.devRef .tc main_v74) = val_main_v74 (F := F) x1) :
    after pH3 W (Proc.devRef .tc main_v84) = val_main_v84 (F := F) x0 x1 x2 x3 x4 := by
  after_results_simp
  rw [h_v50, h_v48, h_v74]; rfl

/-- What part `pH4` does not write and is read later keeps its contents through it. -/
theorem pH4_keep (W : Valuation τ sig (Elt F)) :
    after pH4 W (Proc.devRef .tc main_arg0) = W (Proc.devRef .tc main_arg0)
    ∧ after pH4 W (Proc.devRef .tc main_arg1) = W (Proc.devRef .tc main_arg1)
    ∧ after pH4 W (Proc.devRef .tc main_arg2) = W (Proc.devRef .tc main_arg2)
    ∧ after pH4 W (Proc.devRef .tc main_arg3) = W (Proc.devRef .tc main_arg3)
    ∧ after pH4 W (Proc.devRef .tc main_arg4) = W (Proc.devRef .tc main_arg4)
    ∧ after pH4 W (Proc.devRef .tc main_arg5) = W (Proc.devRef .tc main_arg5) := by
  refine ⟨?_, ?_, ?_, ?_, ?_, ?_⟩ <;> after_results_simp

/-- `main_v90` after part `pH4`, from what the part reads. -/
theorem pH4_v90 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F))
    (h_v51 : W (Proc.devRef .tc main_v51) = val_main_v51 (F := F) x1)
    (h_v84 : W (Proc.devRef .tc main_v84) = val_main_v84 (F := F) x0 x1 x2 x3 x4)
    (h_arg5 : W (Proc.devRef .tc main_arg5) = x5) :
    after pH4 W (Proc.devRef .tc main_v90) = val_main_v90 (F := F) x0 x1 x2 x3 x4 x5 := by
  after_results_simp
  rw [h_v51, h_v84, h_arg5]; rfl

/-- What part `pH5` does not write and is read later keeps its contents through it. -/
theorem pH5_keep (W : Valuation τ sig (Elt F)) :
    after pH5 W (Proc.devRef .tc main_arg0) = W (Proc.devRef .tc main_arg0)
    ∧ after pH5 W (Proc.devRef .tc main_arg1) = W (Proc.devRef .tc main_arg1)
    ∧ after pH5 W (Proc.devRef .tc main_arg2) = W (Proc.devRef .tc main_arg2)
    ∧ after pH5 W (Proc.devRef .tc main_arg3) = W (Proc.devRef .tc main_arg3)
    ∧ after pH5 W (Proc.devRef .tc main_arg4) = W (Proc.devRef .tc main_arg4)
    ∧ after pH5 W (Proc.devRef .tc main_arg5) = W (Proc.devRef .tc main_arg5) := by
  refine ⟨?_, ?_, ?_, ?_, ?_, ?_⟩ <;> after_results_simp

/-- `main_v91` after part `pH5`, from what the part reads. -/
theorem pH5_v91 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F))
    (h_v90 : W (Proc.devRef .tc main_v90) = val_main_v90 (F := F) x0 x1 x2 x3 x4 x5) :
    after pH5 W (Proc.devRef .tc main_v91) = val_main_v91 (F := F) x0 x1 x2 x3 x4 x5 := by
  after_results_simp
  -- the called function's operations carry each value to its buffer's type and back: cancel the round trips, read the
  -- argument at the value's type, and state the result at the value's type
  simp only [ofBuf_toBuf]
  rw [ofBuf_eq (TRef.of (T := ⟨S100000x40, .f32⟩) main_v90) _ _ (heq_of_eq h_v90)]
  refine toBuf_eq (TRef.of (T := ⟨S100000x40, .f32⟩) main_v91) _ _ (heq_of_eq ?_)
  -- no transport is left: the stages open to the same operations
  rfl

/-- The fold of the whole program is the fold of the parts, one after the other. -/
theorem after_ops (V : Valuation τ sig (Elt F)) :
    after ops V = after pH5 (after pH4 (after pH3 (after pH2 (after pH1 (after pG (after pE (after pD4 (after pD3 (after pD2 (after pD1 (after pC (after pB (after pA V))))))))))))) := by
  rw [ops_eq]; simp only [after_append]

set_option maxRecDepth 8192 in
/-- After the whole program, from any contents: the result is the last stage at the arguments' contents, and the arguments are kept. -/
theorem after_ops_results (V : Valuation τ sig (Elt F)) :
    after ops V (Proc.devRef .tc main_v91) = val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  have f0_arg0 : V (Proc.devRef .tc main_arg0) = V (Proc.devRef .tc main_arg0) := rfl
  have f0_arg1 : V (Proc.devRef .tc main_arg1) = V (Proc.devRef .tc main_arg1) := rfl
  have f0_arg2 : V (Proc.devRef .tc main_arg2) = V (Proc.devRef .tc main_arg2) := rfl
  have f0_arg3 : V (Proc.devRef .tc main_arg3) = V (Proc.devRef .tc main_arg3) := rfl
  have f0_arg4 : V (Proc.devRef .tc main_arg4) = V (Proc.devRef .tc main_arg4) := rfl
  have f0_arg5 : V (Proc.devRef .tc main_arg5) = V (Proc.devRef .tc main_arg5) := rfl
  obtain ⟨kf1_arg0, kf1_arg1, kf1_arg2, kf1_arg3, kf1_arg4, kf1_arg5⟩ := pA_keep (F := F) V
  have f1_arg0 := kf1_arg0.trans f0_arg0
  have f1_arg1 := kf1_arg1.trans f0_arg1
  have f1_arg2 := kf1_arg2.trans f0_arg2
  have f1_arg3 := kf1_arg3.trans f0_arg3
  have f1_arg4 := kf1_arg4.trans f0_arg4
  have f1_arg5 := kf1_arg5.trans f0_arg5
  have f1_v1 := pA_v1 (F := F) V _ f0_arg1
  have f1_v3 := pA_v3 (F := F) V _ f0_arg1
  have f1_v4 := pA_v4 (F := F) V _ _ f0_arg0 f0_arg2
  have f1_v5 := pA_v5 (F := F) V
  obtain ⟨kf2_arg0, kf2_arg1, kf2_arg2, kf2_arg3, kf2_arg4, kf2_arg5, kf2_v1, kf2_v3, kf2_v4, kf2_v5⟩ := pB_keep (F := F) (after pA V)
  have f2_arg0 := kf2_arg0.trans f1_arg0
  have f2_arg1 := kf2_arg1.trans f1_arg1
  have f2_arg2 := kf2_arg2.trans f1_arg2
  have f2_arg3 := kf2_arg3.trans f1_arg3
  have f2_arg4 := kf2_arg4.trans f1_arg4
  have f2_arg5 := kf2_arg5.trans f1_arg5
  have f2_v1 := kf2_v1.trans f1_v1
  have f2_v3 := kf2_v3.trans f1_v3
  have f2_v4 := kf2_v4.trans f1_v4
  have f2_v5 := kf2_v5.trans f1_v5
  have f2_v6 := pB_v6 (F := F) (after pA V) _ f1_v1 f1_v5
  obtain ⟨kf3_arg0, kf3_arg1, kf3_arg2, kf3_arg3, kf3_arg4, kf3_arg5, kf3_v1, kf3_v3, kf3_v4, kf3_v6⟩ := pC_keep (F := F) (after pB (after pA V))
  have f3_arg0 := kf3_arg0.trans f2_arg0
  have f3_arg1 := kf3_arg1.trans f2_arg1
  have f3_arg2 := kf3_arg2.trans f2_arg2
  have f3_arg3 := kf3_arg3.trans f2_arg3
  have f3_arg4 := kf3_arg4.trans f2_arg4
  have f3_arg5 := kf3_arg5.trans f2_arg5
  have f3_v1 := kf3_v1.trans f2_v1
  have f3_v3 := kf3_v3.trans f2_v3
  have f3_v4 := kf3_v4.trans f2_v4
  have f3_v6 := kf3_v6.trans f2_v6
  have f3_v7 := pC_v7 (F := F) (after pB (after pA V)) _ f2_v3 f2_v5
  obtain ⟨kf4_arg0, kf4_arg1, kf4_arg2, kf4_arg3, kf4_arg4, kf4_arg5, kf4_v1, kf4_v3, kf4_v4, kf4_v6, kf4_v7⟩ := pD1_keep (F := F) (after pC (after pB (after pA V)))
  have f4_arg0 := kf4_arg0.trans f3_arg0
  have f4_arg1 := kf4_arg1.trans f3_arg1
  have f4_arg2 := kf4_arg2.trans f3_arg2
  have f4_arg3 := kf4_arg3.trans f3_arg3
  have f4_arg4 := kf4_arg4.trans f3_arg4
  have f4_arg5 := kf4_arg5.trans f3_arg5
  have f4_v1 := kf4_v1.trans f3_v1
  have f4_v3 := kf4_v3.trans f3_v3
  have f4_v4 := kf4_v4.trans f3_v4
  have f4_v6 := kf4_v6.trans f3_v6
  have f4_v7 := kf4_v7.trans f3_v7
  have f4_v15 := pD1_v15 (F := F) (after pC (after pB (after pA V))) _ f3_v7
  obtain ⟨kf5_arg0, kf5_arg1, kf5_arg2, kf5_arg3, kf5_arg4, kf5_arg5, kf5_v1, kf5_v3, kf5_v4, kf5_v6, kf5_v7⟩ := pD2_keep (F := F) (after pD1 (after pC (after pB (after pA V))))
  have f5_arg0 := kf5_arg0.trans f4_arg0
  have f5_arg1 := kf5_arg1.trans f4_arg1
  have f5_arg2 := kf5_arg2.trans f4_arg2
  have f5_arg3 := kf5_arg3.trans f4_arg3
  have f5_arg4 := kf5_arg4.trans f4_arg4
  have f5_arg5 := kf5_arg5.trans f4_arg5
  have f5_v1 := kf5_v1.trans f4_v1
  have f5_v3 := kf5_v3.trans f4_v3
  have f5_v4 := kf5_v4.trans f4_v4
  have f5_v6 := kf5_v6.trans f4_v6
  have f5_v7 := kf5_v7.trans f4_v7
  have f5_v30 := pD2_v30 (F := F) (after pD1 (after pC (after pB (after pA V)))) _ f4_v6 f4_v15 f4_v7
  obtain ⟨kf6_arg0, kf6_arg1, kf6_arg2, kf6_arg3, kf6_arg4, kf6_arg5, kf6_v1, kf6_v3, kf6_v7⟩ := pD3_keep (F := F) (after pD2 (after pD1 (after pC (after pB (after pA V)))))
  have f6_arg0 := kf6_arg0.trans f5_arg0
  have f6_arg1 := kf6_arg1.trans f5_arg1
  have f6_arg2 := kf6_arg2.trans f5_arg2
  have f6_arg3 := kf6_arg3.trans f5_arg3
  have f6_arg4 := kf6_arg4.trans f5_arg4
  have f6_arg5 := kf6_arg5.trans f5_arg5
  have f6_v1 := kf6_v1.trans f5_v1
  have f6_v3 := kf6_v3.trans f5_v3
  have f6_v7 := kf6_v7.trans f5_v7
  have f6_v40 := pD3_v40 (F := F) (after pD2 (after pD1 (after pC (after pB (after pA V))))) _ _ _ f5_v6 f5_v4 f5_v30
  obtain ⟨kf7_arg0, kf7_arg1, kf7_arg2, kf7_arg3, kf7_arg4, kf7_arg5, kf7_v1, kf7_v3⟩ := pD4_keep (F := F) (after pD3 (after pD2 (after pD1 (after pC (after pB (after pA V))))))
  have f7_arg0 := kf7_arg0.trans f6_arg0
  have f7_arg1 := kf7_arg1.trans f6_arg1
  have f7_arg2 := kf7_arg2.trans f6_arg2
  have f7_arg3 := kf7_arg3.trans f6_arg3
  have f7_arg4 := kf7_arg4.trans f6_arg4
  have f7_arg5 := kf7_arg5.trans f6_arg5
  have f7_v1 := kf7_v1.trans f6_v1
  have f7_v3 := kf7_v3.trans f6_v3
  have f7_v48 := pD4_v48 (F := F) (after pD3 (after pD2 (after pD1 (after pC (after pB (after pA V)))))) _ _ _ _ _ f6_v7 f6_v40 f6_arg3 f6_arg4
  have f7_v49 := pD4_v49 (F := F) (after pD3 (after pD2 (after pD1 (after pC (after pB (after pA V))))))
  obtain ⟨kf8_arg0, kf8_arg1, kf8_arg2, kf8_arg3, kf8_arg4, kf8_arg5, kf8_v3, kf8_v48, kf8_v49⟩ := pE_keep (F := F) (after pD4 (after pD3 (after pD2 (after pD1 (after pC (after pB (after pA V)))))))
  have f8_arg0 := kf8_arg0.trans f7_arg0
  have f8_arg1 := kf8_arg1.trans f7_arg1
  have f8_arg2 := kf8_arg2.trans f7_arg2
  have f8_arg3 := kf8_arg3.trans f7_arg3
  have f8_arg4 := kf8_arg4.trans f7_arg4
  have f8_arg5 := kf8_arg5.trans f7_arg5
  have f8_v3 := kf8_v3.trans f7_v3
  have f8_v48 := kf8_v48.trans f7_v48
  have f8_v49 := kf8_v49.trans f7_v49
  have f8_v50 := pE_v50 (F := F) (after pD4 (after pD3 (after pD2 (after pD1 (after pC (after pB (after pA V))))))) _ f7_v1 f7_v49
  obtain ⟨kf9_arg0, kf9_arg1, kf9_arg2, kf9_arg3, kf9_arg4, kf9_arg5, kf9_v48, kf9_v50⟩ := pG_keep (F := F) (after pE (after pD4 (after pD3 (after pD2 (after pD1 (after pC (after pB (after pA V))))))))
  have f9_arg0 := kf9_arg0.trans f8_arg0
  have f9_arg1 := kf9_arg1.trans f8_arg1
  have f9_arg2 := kf9_arg2.trans f8_arg2
  have f9_arg3 := kf9_arg3.trans f8_arg3
  have f9_arg4 := kf9_arg4.trans f8_arg4
  have f9_arg5 := kf9_arg5.trans f8_arg5
  have f9_v48 := kf9_v48.trans f8_v48
  have f9_v50 := kf9_v50.trans f8_v50
  have f9_v51 := pG_v51 (F := F) (after pE (after pD4 (after pD3 (after pD2 (after pD1 (after pC (after pB (after pA V)))))))) _ f8_v3 f8_v49
  obtain ⟨kf10_arg0, kf10_arg1, kf10_arg2, kf10_arg3, kf10_arg4, kf10_arg5, kf10_v48, kf10_v50, kf10_v51⟩ := pH1_keep (F := F) (after pG (after pE (after pD4 (after pD3 (after pD2 (after pD1 (after pC (after pB (after pA V)))))))))
  have f10_arg0 := kf10_arg0.trans f9_arg0
  have f10_arg1 := kf10_arg1.trans f9_arg1
  have f10_arg2 := kf10_arg2.trans f9_arg2
  have f10_arg3 := kf10_arg3.trans f9_arg3
  have f10_arg4 := kf10_arg4.trans f9_arg4
  have f10_arg5 := kf10_arg5.trans f9_arg5
  have f10_v48 := kf10_v48.trans f9_v48
  have f10_v50 := kf10_v50.trans f9_v50
  have f10_v51 := kf10_v51.trans f9_v51
  have f10_v59 := pH1_v59 (F := F) (after pG (after pE (after pD4 (after pD3 (after pD2 (after pD1 (after pC (after pB (after pA V))))))))) _ f9_v51
  obtain ⟨kf11_arg0, kf11_arg1, kf11_arg2, kf11_arg3, kf11_arg4, kf11_arg5, kf11_v48, kf11_v50, kf11_v51⟩ := pH2_keep (F := F) (after pH1 (after pG (after pE (after pD4 (after pD3 (after pD2 (after pD1 (after pC (after pB (after pA V))))))))))
  have f11_arg0 := kf11_arg0.trans f10_arg0
  have f11_arg1 := kf11_arg1.trans f10_arg1
  have f11_arg2 := kf11_arg2.trans f10_arg2
  have f11_arg3 := kf11_arg3.trans f10_arg3
  have f11_arg4 := kf11_arg4.trans f10_arg4
  have f11_arg5 := kf11_arg5.trans f10_arg5
  have f11_v48 := kf11_v48.trans f10_v48
  have f11_v50 := kf11_v50.trans f10_v50
  have f11_v51 := kf11_v51.trans f10_v51
  have f11_v74 := pH2_v74 (F := F) (after pH1 (after pG (after pE (after pD4 (after pD3 (after pD2 (after pD1 (after pC (after pB (after pA V)))))))))) _ f10_v50 f10_v59 f10_v51
  obtain ⟨kf12_arg0, kf12_arg1, kf12_arg2, kf12_arg3, kf12_arg4, kf12_arg5, kf12_v51⟩ := pH3_keep (F := F) (after pH2 (after pH1 (after pG (after pE (after pD4 (after pD3 (after pD2 (after pD1 (after pC (after pB (after pA V)))))))))))
  have f12_arg0 := kf12_arg0.trans f11_arg0
  have f12_arg1 := kf12_arg1.trans f11_arg1
  have f12_arg2 := kf12_arg2.trans f11_arg2
  have f12_arg3 := kf12_arg3.trans f11_arg3
  have f12_arg4 := kf12_arg4.trans f11_arg4
  have f12_arg5 := kf12_arg5.trans f11_arg5
  have f12_v51 := kf12_v51.trans f11_v51
  have f12_v84 := pH3_v84 (F := F) (after pH2 (after pH1 (after pG (after pE (after pD4 (after pD3 (after pD2 (after pD1 (after pC (after pB (after pA V))))))))))) _ _ _ _ _ f11_v50 f11_v48 f11_v74
  obtain ⟨kf13_arg0, kf13_arg1, kf13_arg2, kf13_arg3, kf13_arg4, kf13_arg5⟩ := pH4_keep (F := F) (after pH3 (after pH2 (after pH1 (after pG (after pE (after pD4 (after pD3 (after pD2 (after pD1 (after pC (after pB (after pA V))))))))))))
  have f13_arg0 := kf13_arg0.trans f12_arg0
  have f13_arg1 := kf13_arg1.trans f12_arg1
  have f13_arg2 := kf13_arg2.trans f12_arg2
  have f13_arg3 := kf13_arg3.trans f12_arg3
  have f13_arg4 := kf13_arg4.trans f12_arg4
  have f13_arg5 := kf13_arg5.trans f12_arg5
  have f13_v90 := pH4_v90 (F := F) (after pH3 (after pH2 (after pH1 (after pG (after pE (after pD4 (after pD3 (after pD2 (after pD1 (after pC (after pB (after pA V)))))))))))) _ _ _ _ _ _ f12_v51 f12_v84 f12_arg5
  obtain ⟨kf14_arg0, kf14_arg1, kf14_arg2, kf14_arg3, kf14_arg4, kf14_arg5⟩ := pH5_keep (F := F) (after pH4 (after pH3 (after pH2 (after pH1 (after pG (after pE (after pD4 (after pD3 (after pD2 (after pD1 (after pC (after pB (after pA V)))))))))))))
  have f14_arg0 := kf14_arg0.trans f13_arg0
  have f14_arg1 := kf14_arg1.trans f13_arg1
  have f14_arg2 := kf14_arg2.trans f13_arg2
  have f14_arg3 := kf14_arg3.trans f13_arg3
  have f14_arg4 := kf14_arg4.trans f13_arg4
  have f14_arg5 := kf14_arg5.trans f13_arg5
  have f14_v91 := pH5_v91 (F := F) (after pH4 (after pH3 (after pH2 (after pH1 (after pG (after pE (after pD4 (after pD3 (after pD2 (after pD1 (after pC (after pB (after pA V))))))))))))) _ _ _ _ _ _ f13_v90
  rw [after_ops]
  exact ⟨f14_v91, f14_arg0, f14_arg1, f14_arg2, f14_arg3, f14_arg4, f14_arg5⟩

/-- On every device, from any memory with zero counters: every weakly fair execution of @main terminates with the result at the
    last stage of the stage-by-stage reading, at the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨e, e0, e1, e2, e3, e4, e5⟩ := after_ops_results (F := Ideal) (launchContents m c)
      exact ⟨(h c main_v91).trans e, (h c main_arg0).trans e0, (h c main_arg1).trans e1, (h c main_arg2).trans e2,
        (h c main_arg3).trans e3, (h c main_arg4).trans e4, (h c main_arg5).trans e5⟩)
    (run_seq scopedRefs_eq scopedSems_eq defs main (fun _ => ops) main_eq (fun _ => ops_sub) m ρ)

end Cert.ReferenceIdeal.ByParts

end
-- ==== Proof.RefAggregate.lean ====
/-
  The degree-normalised neighbourhood sum as the reference program spells it.

  Each edge `e` carries row `H (src e)` weighted by `d (src e) * d (dst e)` into row `dst e`: the weights are gathered
  from the factor vector `d` at the edges' two ends, multiplied, laid out as a column and spread over the features; the
  weighted rows are added into their destinations (`weighted128`, `weighted40`). Index columns as in the kernel's
  program: a source or destination row index read by a gather is wrapped by the node count when negative
  (`wrappedColumn`), the destination of the addition is used as it stands (`plainColumn`).
-/
import proofs.«140534_j83777632075847_2_alg».proof.Proof.Gen.ReferenceIdeal
import Idealize.ShloMosaic.PureOps.Ideal

noncomputable section

namespace Cert.ReferenceIdeal.Blocks

open Cert.ReferenceIdeal Cert.ReferenceIdeal.Gen
open Idealize.ShloMosaic Idealize.ShloMosaic.TcCoe Idealize.SL.Sem

/-- Row indices as a column of start indices for a gather: a negative entry is wrapped by the node count. -/
def wrappedColumn (R : IVec S1700000 32) : IVec S1700000x1 32 :=
  broadcastInDim S1700000x1 ![0] bcast_S1700000_S1700000x1_0
    (select (cmpi .slt R (broadcastInDim S1700000 ![] bcast_S_S1700000 (constantI S_ 32 0#32)))
      (addi R (broadcastInDim S1700000 ![] bcast_S_S1700000 (constantI S_ 32 100000#32))) R)

/-- Row indices as a column of scatter indices, entries as they stand. -/
def plainColumn (C : IVec S1700000 32) : IVec S1700000x1 32 :=
  broadcastInDim S1700000x1 ![0] bcast_S1700000_S1700000x1_0 C

/-- The edges' weights `d (src e) * d (dst e)`. -/
def edgeWeights (d : FVec Ideal S100000 .f32) (R C : IVec S1700000 32) :
    FVec Ideal S1700000 .f32 :=
  mulf (Host.gather gather_S100000_S1700000x1_S1700000_n_0_n_n_0_1_1 d (wrappedColumn R))
    (Host.gather gather_S100000_S1700000x1_S1700000_n_0_n_n_0_1_1 d (wrappedColumn C))

/-- Rows of `H` gathered at the edges' sources, weighted, added into the edges' destinations (128 features). -/
def weighted128 (H : FVec Ideal S100000x128 .f32) (d : FVec Ideal S100000 .f32)
    (R C : IVec S1700000 32) : FVec Ideal S100000x128 .f32 :=
  Host.scatterAdd scatter_S100000x128_S1700000x1_S1700000x128_1_0_0_1
    (broadcastInDim S100000x128 ![] bcast_S_S100000x128 (constant (F := Ideal) S_ .f32 0x00000000#32))
    (plainColumn C)
    (mulf (Host.gather gather_S100000x128_S1700000x1_S1700000x128_1_0_n_n_0_1_1128 H (wrappedColumn R))
      (broadcastInDim S1700000x128 ![0, 1] bcast_S1700000x1_S1700000x128_0_1
        (broadcastInDim S1700000x1 ![0] bcast_S1700000_S1700000x1_0 (edgeWeights d R C))))

/-- The same over 40 features. -/
def weighted40 (H : FVec Ideal S100000x40 .f32) (d : FVec Ideal S100000 .f32)
    (R C : IVec S1700000 32) : FVec Ideal S100000x40 .f32 :=
  Host.scatterAdd scatter_S100000x40_S1700000x1_S1700000x40_1_0_0_1
    (broadcastInDim S100000x40 ![] bcast_S_S100000x40 (constant (F := Ideal) S_ .f32 0x00000000#32))
    (plainColumn C)
    (mulf (Host.gather gather_S100000x40_S1700000x1_S1700000x40_1_0_n_n_0_1_140 H (wrappedColumn R))
      (broadcastInDim S1700000x40 ![0, 1] bcast_S1700000x1_S1700000x40_0_1
        (broadcastInDim S1700000x1 ![0] bcast_S1700000_S1700000x1_0 (edgeWeights d R C))))

end Cert.ReferenceIdeal.Blocks

end
-- ==== Proof.RefSoftmax.lean ====
/-
  The reference's row-wise log-softmax, read at an entry.

  For a logit array `Z` of shape [100000, 40] the reference takes each row's largest entry `M p` (a maximum-reduction from
  `lo`, the word of −∞, joined once more with `lo`), shifts the row by it, and subtracts the logarithm of the row's sum of
  exponentials of the shifted entries: entry (p, q) is `(Z p q - M p) - log (∑ q', exp (Z p q' - M p))`, with
  `M p` the fold of `max` from `lo` over the forty entries of row `p` (joining the fold with `lo` again changes nothing:
  the fold is at least its starting value).
-/
import proofs.«140534_j83777632075847_2_alg».proof.Proof.Gen.ReferenceIdeal
import proofs.«140534_j83777632075847_2_alg».proof.Proof.LibColumnBroadcast
import Mathlib.Data.Finset.Fold
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

namespace Cert.ReferenceIdeal.Blocks

open Cert.ReferenceIdeal Cert.ReferenceIdeal.Gen
open Idealize.ShloMosaic Idealize.ShloMosaic.TcCoe Idealize.SL.Sem Idealize.ShloMosaic.ValueIdx

/-- Each row's largest entry, as the reference computes it, spread back over the row. -/
def rowMaxSpread (Z : FVec Ideal S100000x40 .f32) : FVec Ideal S100000x40 .f32 :=
  broadcastInDim S100000x40 ![0, 1] bcast_S100000x1_S100000x40_0_1
    (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x40_S100000_d1 h_S_)))

/-- The logarithm of each row's sum of exponentials, spread back over the row. -/
def rowLogSumExpSpread (Y : FVec Ideal S100000x40 .f32) : FVec Ideal S100000x40 .f32 :=
  broadcastInDim S100000x40 ![0, 1] bcast_S100000x1_S100000x40_0_1
    (Host.log (broadcastInDim S100000x1 ![0] bcast_S100000_S100000x1_0
      (Host.reduceAdd (Host.exp Y) (constant (F := Ideal) S_ .f32 0x00000000#32) reducesTo_S100000x40_S100000_d1 h_S_)))

/-- The reference's log-softmax over each row. -/
def logSoftmax (Z : FVec Ideal S100000x40 .f32) : FVec Ideal S100000x40 .f32 :=
  subf (subf Z (rowMaxSpread Z)) (rowLogSumExpSpread (subf Z (rowMaxSpread Z)))

/-- A row's largest entry: the fold of `max` from the word of −∞ over the row's forty entries. -/
def rowMax (Z : FVec Ideal S100000x40 .f32) (p : Fin 100000) : EReal :=
  (Finset.univ : Finset (Fin 40)).fold max (Ideal.ofBits .f32 0xFF800000#32) (fun q => Z (ix2 p q))

/-- The host's logarithm reads entry by entry. -/
theorem hostLog_apply {s : Shape} (v : FVec Ideal s .f32) (i : s.Idx) : Host.log v i = Ideal.log (v i) := rfl

/-- The host's exponential reads entry by entry. -/
theorem hostExp_apply {s : Shape} (v : FVec Ideal s .f32) (i : s.Idx) : Host.exp v i = Ideal.exp (v i) := rfl

/-- The host's sum over an axis is the exact sum from the initial value. -/
theorem hostReduceAdd_eq {s t u : Shape} {axes : List (Fin s.rank)} (x : FVec Ideal s .f32) (init : FVec Ideal u .f32)
    (h : s.ReducesTo axes t) (hu : 0 < u.numel) :
    Host.reduceAdd x init h hu = Ideal.hostReduceAdd h x (init (Shape.Idx.first hu)) := rfl

theorem lift_row (h : S100000x40.Reduces [1] S100000) (p : Fin 100000) (k : Fin 40) :
    h.lift (ix1 p) k = ix2 p k :=
  funext fun a => Fin.ext (by
    match a with
    | ⟨0, _⟩ => rfl
    | ⟨1, _⟩ => rfl)

/-- A fold of `max` is at least its starting value. -/
theorem max_start_fold {ι : Type} (s : Finset ι) (b : EReal) (f : ι → EReal) : max b (s.fold max b f) = s.fold max b f :=
  max_eq_right ((Finset.le_fold_max b).mpr (Or.inl (le_refl b)))

/-- The maximum-reduction of row `p` from the word of −∞. -/
theorem reduceMax_row (Z : FVec Ideal S100000x40 .f32) (p : Fin 100000) :
    Host.reduce FloatOps.maximumf Z (constant (F := Ideal) S_ .f32 0xFF800000#32) reducesTo_S100000x40_S100000_d1 h_S_ (ix1 p)
      = rowMax Z p := by
  have hred : S100000x40.Reduces [1] S100000 := by decide
  rw [Host.reduce_eq_fold_single FloatOps.maximumf Z _ reducesTo_S100000x40_S100000_d1 hred h_S_ (ix1 p)]
  have hf : (Z ∘ hred.lift (ix1 p)) = fun k : Fin 40 => Z (ix2 p k) := funext fun k => congrArg Z (lift_row hred p k)
  rw [hf]
  rfl

theorem rowMaxSpread_ix2 (Z : FVec Ideal S100000x40 .f32) (p : Fin 100000) (q : Fin 40) :
    rowMaxSpread Z (ix2 p q) = rowMax Z p := by
  unfold rowMaxSpread
  rw [broadcastInDim_a1_ab_apply, broadcastInDim_a_a1_apply, maximumf_apply, reduceMax_row]
  have hlo : (broadcastInDim S100000 ![] bcast_S_S100000 (constant (F := Ideal) S_ .f32 0xFF800000#32)) (ix1 p)
      = Ideal.ofBits .f32 0xFF800000#32 :=
    broadcastInDim_apply _ bcast_S_S100000 _ (ix1 p) (fun a => a.elim0) (fun a => a.elim0)
  rw [hlo]
  exact max_start_fold _ _ _

theorem rowLogSumExpSpread_ix2 (Y : FVec Ideal S100000x40 .f32) (p : Fin 100000) (q : Fin 40) :
    rowLogSumExpSpread Y (ix2 p q) = Ideal.log (∑ k : Fin 40, Ideal.exp (Y (ix2 p k))) := by
  unfold rowLogSumExpSpread
  have hred : S100000x40.Reduces [1] S100000 := by decide
  rw [broadcastInDim_a1_ab_apply, hostLog_apply, broadcastInDim_a_a1_apply, hostReduceAdd_eq,
    Ideal.hostReduceAdd_single reducesTo_S100000x40_S100000_d1 hred]
  have h0 : (constant (F := Ideal) S_ .f32 0x00000000#32) (Shape.Idx.first h_S_) = (0 : EReal) := Ideal.ofBits_zero_f32
  rw [h0, zero_add]
  refine congrArg Ideal.log (Finset.sum_congr rfl fun k _ => ?_)
  rw [lift_row hred p k, hostExp_apply]

/-- The reference's log-softmax at row `p`, class `q`. -/
theorem logSoftmax_ix2 (Z : FVec Ideal S100000x40 .f32) (p : Fin 100000) (q : Fin 40) :
    logSoftmax Z (ix2 p q)
      = (Z (ix2 p q) - rowMax Z p) - Ideal.log (∑ k : Fin 40, Ideal.exp (Z (ix2 p k) - rowMax Z p)) := by
  unfold logSoftmax
  rw [subf_apply, subf_apply, rowMaxSpread_ix2, rowLogSumExpSpread_ix2]
  refine congrArg (fun s => (Z (ix2 p q) - rowMax Z p) - Ideal.log s) (Finset.sum_congr rfl fun k _ => ?_)
  rw [subf_apply, rowMaxSpread_ix2]

end Cert.ReferenceIdeal.Blocks

end
-- ==== Proof.LibRowGatherScatter.lean ====
/-
  GENERAL LEMMAS — a row gather, an entry gather and a row scatter's landing index, read at indices given by
  coordinates.

  * `rowGatherDims` / `gather_rows_apply`: `x[idx]` of a table `x : [N, K]` at a column of start indices
    `idx : [E, 1]` (offset axis 1, collapsed axis 0, start index map `[0]`, slice sizes `[1, K]`, index vector axis 1).
    Result element `(e, f)` is `x` at row `idx[e, 0]`, read as a signed integer and clamped into `[0, N − 1]`, column `f`.
  * `entryGatherDims` / `gather_entries_apply`: the same for a flat array `x : [N]` (no offset axis, slice sizes `[1]`):
    result element `e` is `x` at `idx[e, 0]`, read signed and clamped into `[0, N − 1]`.
  * `rowScatterDims` / `scatter_rows_resultIdx?_eq_some_iff`: a scatter of rows `[E, K]` into a table `[N, K]` at a
    column of scatter indices `[E, 1]` (update window axis 1, inserted window axis 0, scatter-dims-to-operand-dims `[0]`,
    index vector axis 1). Update element `(e, f)` lands at row `idx[e, 0]`, read as a signed integer and NOT clamped,
    column `f`; it is dropped when that row is outside `[0, N)`.
  * `entryScatterDims` / `scatter_entries_resultIdx?_eq_some_iff`: the same for a flat array `[N]` and updates `[E]` (no
    window axis): update `e` lands at `idx[e, 0]`, read signed and not clamped, and is dropped outside `[0, N)`.
-/
import Idealize.ShloMosaic.Lib.Pipeline.Value
import Idealize.ShloMosaic.Lib.ValueIdx

noncomputable section

namespace Idealize.ShloMosaic.ValueIdx

open Idealize.ShloMosaic

/-! ## A row gather `x[idx]` of a table `[N, K]` at start indices `[E, 1]` -/

section RowGather
variable {α : Type}

/-- The dimension numbers of a row gather: operand `[N, K]`, start indices `[E, 1]`, result `[E, K]`; the result's
    axis 1 is the offset axis (it runs over a whole row, slice sizes `[1, K]`), the operand's axis 0 is collapsed and is
    the one the start index names, and the index vector lies along the start indices' axis 1 (of size 1). Their
    conditions `wf` are decided on a program's literal shapes. -/
abbrev rowGatherDims (N E K : ℕ)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, f)`: the operand at row `idx[e, 0]` — read as a signed integer and clamped into
    `[0, N − 1]` — and column `f`. On axis 0 the operand index is the clamped start (no batching, the axis is collapsed);
    on axis 1 the start is `0` (the start index map does not name it) and the offset coordinate is the result's column. -/
theorem gather_rows_apply {N E K w : ℕ} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (f : Fin K) :
    Host.gather (rowGatherDims N E K wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N E K wf).start (ix2 e f) idx 0 + (rowGatherDims N E K wf).batchCoord (ix2 e f) 0
      + (rowGatherDims N E K wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e f) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E K wf).start (ix2 e f) idx 1 + (rowGatherDims N E K wf).batchCoord (ix2 e f) 1
      + (rowGatherDims N E K wf).offCoord (ix2 e f) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end RowGather

/-! ## An entry gather `x[idx]` of a flat array `[N]` at start indices `[E, 1]` -/

section EntryGather
variable {α : Type}

/-- The dimension numbers of an entry gather: operand `[N]`, start indices `[E, 1]`, result `[E]`; no offset axis, the
    operand's one axis collapsed and named by the start index (slice sizes `[1]`), the index vector along the start
    indices' axis 1 (of size 1). Their conditions `wf` are decided on a program's literal shapes. -/
abbrev entryGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at `idx[e, 0]`, read as a signed integer and clamped into `[0, N − 1]`. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryGatherDims N E wf).start (ix1 e) idx 0 + (entryGatherDims N E wf).batchCoord (ix1 e) 0
    + (entryGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGatherDims N E wf).startIndexMap from List.mem_singleton.mpr rfl)]
  have hsi : (entryGatherDims N E wf).siIdx (ix1 e) ⟨List.idxOf (0 : Fin 1) (entryGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A row scatter of updates `[E, K]` into a table `[N, K]` at scatter indices `[E, 1]`: where an update lands -/

section RowScatter

/-- The dimension numbers of a row scatter: operand `[N, K]`, scatter indices `[E, 1]`, updates `[E, K]`; the updates'
    axis 1 is the window axis (it goes to the operand's axis 1), the operand's axis 0 is the inserted window axis and
    the one the scatter index names, and the index vector lies along the scatter indices' axis 1 (of size 1). Their
    conditions `wf` are decided on a program's literal shapes. -/
abbrev rowScatterDims (N E K : ℕ)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- On the operand's axis 0 the window of update `(e, f)` starts at the scatter index `idx[e, 0]`, read as a signed
    integer. -/
theorem rowScatter_start_zero {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).start (ix2 e f) idx 0 = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e f) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start_one {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).start (ix2 e f) idx 1 = 0 := by
  unfold ScatterDims.start
  rw [dif_neg (show (1 : Fin 2) ∉ ([0] : List (Fin 2)) by decide)]

/-- On the operand's axis 0, an inserted window axis, the window coordinate is `0`. -/
theorem rowScatter_window_zero {N E K : ℕ}
    (wf : ScatterDims.WF ⟨2, ![N, K]⟩ ⟨2, ![E, 1]⟩ ⟨2, ![E, K]⟩ [1] [0] [0] 1) (e : Fin E) (f : Fin K) :
    (rowScatterDims N E K wf).window (ix2 e f) 0 = 0 := by
  unfold ScatterDims.window
  rw [dif_neg (show (0 : Fin 2) ∉ (⟨2, ![N, K]⟩ : Shape).kept ([0] : List (Fin 2)) by
    simp [Shape.kept, List.mem_filter, List.mem_finRange])]

/-- On the operand's axis 1 the window coordinate of update `(e, f)` is its column `f`. -/
theorem rowScatter_window_one {N E K : ℕ}
    (wf : ScatterDims.WF ⟨2, ![N, K]⟩ ⟨2, ![E, 1]⟩ ⟨2, ![E, K]⟩ [1] [0] [0] 1) (e : Fin E) (f : Fin K) :
    (rowScatterDims N E K wf).window (ix2 e f) 1 = f.val := by
  unfold ScatterDims.window
  rw [dif_pos (show (1 : Fin 2) ∈ (⟨2, ![N, K]⟩ : Shape).kept ([0] : List (Fin 2)) by
    simp [Shape.kept, List.mem_filter, List.mem_finRange])]
  rfl

/-- WHERE A ROW SCATTER'S UPDATE LANDS: update `(e, f)` lands at `(p, q)` exactly when the scatter index `idx[e, 0]`,
    read as a SIGNED integer and not clamped, is `p`, and the column is kept, `f = q`. (So an update whose row is outside
    `[0, N)` lands nowhere: it is dropped.) -/
theorem scatter_rows_resultIdx?_eq_some_iff {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) (p : Fin N) (q : Fin K) :
    (rowScatterDims N E K wf).resultIdx? (ix2 e f) idx = some (ix2 p q)
      ↔ (idx (ix2 e (0 : Fin 1))).toInt = (p.val : Int) ∧ f = q := by
  have h0 := rowScatter_start_zero wf idx e f
  have h1 := rowScatter_start_one wf idx e f
  have g0 := rowScatter_window_zero wf e f
  have g1 := rowScatter_window_one wf e f
  unfold ScatterDims.resultIdx?
  split
  · rename_i h
    rw [Option.some.injEq]
    constructor
    · intro hg
      have c0 := congrArg (fun g => (g 0).val) hg
      have c1 := congrArg (fun g => (g 1).val) hg
      have b0 := h 0
      simp only [h0, g0] at c0 b0
      simp only [h1, g1] at c1
      refine ⟨?_, Fin.ext ?_⟩
      · have : ((idx (ix2 e (0 : Fin 1))).toInt + ((0 : ℕ) : Int)).toNat = p.val := c0
        omega
      · have : ((0 : Int) + (f.val : Int)).toNat = q.val := c1
        omega
    · rintro ⟨hz, rfl⟩
      funext a
      refine Fin.ext ?_
      match a with
      | ⟨0, _⟩ =>
        show ((rowScatterDims N E K wf).start (ix2 e f) idx 0 + ((rowScatterDims N E K wf).window (ix2 e f) 0 : Int)).toNat = p.val
        rw [h0, g0, hz]; simp
      | ⟨1, _⟩ =>
        show ((rowScatterDims N E K wf).start (ix2 e f) idx 1 + ((rowScatterDims N E K wf).window (ix2 e f) 1 : Int)).toNat = f.val
        rw [h1, g1]; simp
  · rename_i h
    constructor
    · intro hc; exact absurd hc (by simp)
    · rintro ⟨hz, rfl⟩
      exfalso; apply h
      intro a
      match a with
      | ⟨0, _⟩ =>
        show 0 ≤ (rowScatterDims N E K wf).start (ix2 e f) idx 0 + ((rowScatterDims N E K wf).window (ix2 e f) 0 : Int)
          ∧ (rowScatterDims N E K wf).start (ix2 e f) idx 0 + ((rowScatterDims N E K wf).window (ix2 e f) 0 : Int) < (N : Int)
        rw [h0, g0, hz]
        have := p.isLt
        omega
      | ⟨1, _⟩ =>
        show 0 ≤ (rowScatterDims N E K wf).start (ix2 e f) idx 1 + ((rowScatterDims N E K wf).window (ix2 e f) 1 : Int)
          ∧ (rowScatterDims N E K wf).start (ix2 e f) idx 1 + ((rowScatterDims N E K wf).window (ix2 e f) 1 : Int) < (K : Int)
        rw [h1, g1]
        have := f.isLt
        omega

/-- A row scatter's update `(e, f)` is dropped exactly when its scatter index `idx[e, 0]`, read signed, is outside
    `[0, N)`. -/
theorem scatter_rows_resultIdx?_eq_none_iff {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).resultIdx? (ix2 e f) idx = none
      ↔ ¬ (0 ≤ (idx (ix2 e (0 : Fin 1))).toInt ∧ (idx (ix2 e (0 : Fin 1))).toInt < (N : Int)) := by
  constructor
  · intro hnone hz
    have hp : (idx (ix2 e (0 : Fin 1))).toInt.toNat < N := by omega
    have := (scatter_rows_resultIdx?_eq_some_iff wf idx e f ⟨_, hp⟩ f).mpr ⟨by simp; omega, rfl⟩
    rw [hnone] at this
    exact absurd this (by simp)
  · intro hz
    cases hr : (rowScatterDims N E K wf).resultIdx? (ix2 e f) idx with
    | none => rfl
    | some g =>
      exfalso; apply hz
      rw [eq_ix2 g] at hr
      have := ((scatter_rows_resultIdx?_eq_some_iff wf idx e f (g 0) (g 1)).mp hr).1
      have hlt : (g 0).val < N := (g 0).isLt
      omega

end RowScatter

/-! ## An entry scatter of updates `[E]` into a flat array `[N]` at scatter indices `[E, 1]`: where an update lands -/

section EntryScatter

/-- The dimension numbers of an entry scatter: operand `[N]`, scatter indices `[E, 1]`, updates `[E]`; no window axis,
    the operand's one axis inserted and named by the scatter index, the index vector along the scatter indices' axis 1
    (of size 1). Their conditions `wf` are decided on a program's literal shapes. -/
abbrev entryScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the scatter index `idx[e, 0]`, read as a signed integer. -/
theorem entryScatter_start_zero {N E w : ℕ}
    (wf : ScatterDims.WF ⟨1, ![N]⟩ ⟨2, ![E, 1]⟩ ⟨1, ![E]⟩ [] [0] [0] 1)
    (idx : IVec ⟨2, ![E, 1]⟩ w) (e : Fin E) :
    (entryScatterDims N E wf).start (ix1 e) idx 0 = (idx (ix2 e (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate is `0`. -/
theorem entryScatter_window_zero {N E : ℕ}
    (wf : ScatterDims.WF ⟨1, ![N]⟩ ⟨2, ![E, 1]⟩ ⟨1, ![E]⟩ [] [0] [0] 1) (e : Fin E) :
    (entryScatterDims N E wf).window (ix1 e) 0 = 0 := by
  unfold ScatterDims.window
  rw [dif_neg (show (0 : Fin 1) ∉ (⟨1, ![N]⟩ : Shape).kept ([0] : List (Fin 1)) by
    simp [Shape.kept, List.mem_filter, List.mem_finRange])]

/-- WHERE AN ENTRY SCATTER'S UPDATE LANDS: update `e` lands at `p` exactly when the scatter index `idx[e, 0]`, read as
    a SIGNED integer and not clamped, is `p`. (So an update whose index is outside `[0, N)` lands nowhere: it is
    dropped.) -/
theorem scatter_entries_resultIdx?_eq_some_iff {N E w : ℕ}
    (wf : ScatterDims.WF ⟨1, ![N]⟩ ⟨2, ![E, 1]⟩ ⟨1, ![E]⟩ [] [0] [0] 1)
    (idx : IVec ⟨2, ![E, 1]⟩ w) (e : Fin E) (p : Fin N) :
    (entryScatterDims N E wf).resultIdx? (ix1 e) idx = some (ix1 p)
      ↔ (idx (ix2 e (0 : Fin 1))).toInt = (p.val : Int) := by
  have h0 := entryScatter_start_zero wf idx e
  have g0 := entryScatter_window_zero wf e
  unfold ScatterDims.resultIdx?
  split
  · rename_i h
    rw [Option.some.injEq]
    constructor
    · intro hg
      have c0 := congrArg (fun g => (g 0).val) hg
      have b0 := h 0
      simp only [h0, g0] at c0 b0
      have : ((idx (ix2 e (0 : Fin 1))).toInt + ((0 : ℕ) : Int)).toNat = p.val := c0
      omega
    · intro hz
      funext a
      obtain rfl : a = 0 := Subsingleton.elim _ _
      refine Fin.ext ?_
      show ((entryScatterDims N E wf).start (ix1 e) idx 0 + ((entryScatterDims N E wf).window (ix1 e) 0 : Int)).toNat = p.val
      rw [h0, g0, hz]; simp
  · rename_i h
    constructor
    · intro hc; exact absurd hc (by simp)
    · intro hz
      exfalso; apply h
      intro a
      obtain rfl : a = 0 := Subsingleton.elim _ _
      show 0 ≤ (entryScatterDims N E wf).start (ix1 e) idx 0 + ((entryScatterDims N E wf).window (ix1 e) 0 : Int)
        ∧ (entryScatterDims N E wf).start (ix1 e) idx 0 + ((entryScatterDims N E wf).window (ix1 e) 0 : Int) < (N : Int)
      rw [h0, g0, hz]
      have := p.isLt
      omega

/-- An entry scatter's update `e` is dropped exactly when its scatter index `idx[e, 0]`, read signed, is outside
    `[0, N)`. -/
theorem scatter_entries_resultIdx?_eq_none_iff {N E w : ℕ}
    (wf : ScatterDims.WF ⟨1, ![N]⟩ ⟨2, ![E, 1]⟩ ⟨1, ![E]⟩ [] [0] [0] 1)
    (idx : IVec ⟨2, ![E, 1]⟩ w) (e : Fin E) :
    (entryScatterDims N E wf).resultIdx? (ix1 e) idx = none
      ↔ ¬ (0 ≤ (idx (ix2 e (0 : Fin 1))).toInt ∧ (idx (ix2 e (0 : Fin 1))).toInt < (N : Int)) := by
  constructor
  · intro hnone hz
    have hp : (idx (ix2 e (0 : Fin 1))).toInt.toNat < N := by omega
    have := (scatter_entries_resultIdx?_eq_some_iff wf idx e ⟨_, hp⟩).mpr (by simp; omega)
    rw [hnone] at this
    exact absurd this (by simp)
  · intro hz
    cases hr : (entryScatterDims N E wf).resultIdx? (ix1 e) idx with
    | none => rfl
    | some g =>
      exfalso; apply hz
      rw [eq_ix1 g] at hr
      have := (scatter_entries_resultIdx?_eq_some_iff wf idx e (g 0)).mp hr
      have hlt : (g 0).val < N := (g 0).isLt
      omega

end EntryScatter

end Idealize.ShloMosaic.ValueIdx

end
-- ==== Proof.LibGraphAggregate.lean ====
/-
  A degree-normalised neighbourhood sum, with the destination's factor taken out of the sum.

  Over the extended reals a finite sum may be scaled term by term by a factor that is nonnegative and finite:
  `(∑ j, a j) * r = ∑ j, a j * r` (`sum_mul_of_nonneg_of_ne_top`); for other factors the law fails at the infinities.

  An edge `e` carries a row `H (src e)` to the row `dst e`. Weighting the edge by `d (src e) * d (dst e)` and adding the
  weighted rows into their destinations gives, at destination row `p`, the rows `H (src e) * d (src e)` added into their
  destinations, times `d p`: every edge that lands on row `p` has `dst e = p`, so the second factor is the same for all
  of them and leaves the sum (`scatterAdd_weighted_rows`). The gathers clamp their start index into the array, the
  scatter drops an edge whose destination is outside it; the one fact needed of the two index columns is that an edge
  landing on row `p` reads the factor of row `p` (`hC`).
-/
import Idealize.ShloMosaic.PureOps.Ideal
import Idealize.ShloMosaic.Lib.ValueIdx
import proofs.«140534_j83777632075847_2_alg».proof.Proof.LibRowGatherScatter

noncomputable section

namespace Idealize.ShloMosaic.ValueIdx

open Idealize.ShloMosaic

/-- A finite sum of extended reals scaled by a nonnegative finite factor is the sum of the scaled terms. -/
theorem sum_mul_of_nonneg_of_ne_top {ι : Type} (s : Finset ι) (a : ι → EReal) {r : EReal} (h0 : 0 ≤ r) (ht : r ≠ ⊤) :
    (∑ j ∈ s, a j) * r = ∑ j ∈ s, a j * r := by
  classical
  induction s using Finset.induction_on with
  | empty => simp
  | insert j s hj ih =>
    rw [Finset.sum_insert hj, Finset.sum_insert hj, EReal.right_distrib_of_nonneg_of_ne_top h0 ht, ih]

/-- Rows gathered along the edges, each weighted by the factors of its two end rows, and added into the destination
    rows: at row `p` this is the rows weighted by their source factor only, added likewise, times the factor of `p`. -/
theorem scatterAdd_weighted_rows {N E K w : ℕ} (hN : 0 < N)
    (wfg : GatherDims.WF ⟨2, ![N, K]⟩ ⟨2, ![E, 1]⟩ ⟨2, ![E, K]⟩ [1] [0] [] [0] [] 1 ![1, K])
    (wfe : GatherDims.WF ⟨1, ![N]⟩ ⟨2, ![E, 1]⟩ ⟨1, ![E]⟩ [] [0] [] [0] [] 1 ![1])
    (wfs : ScatterDims.WF ⟨2, ![N, K]⟩ ⟨2, ![E, 1]⟩ ⟨2, ![E, K]⟩ [1] [0] [0] 1)
    (H : (⟨2, ![N, K]⟩ : Shape).Idx → EReal) (d : (⟨1, ![N]⟩ : Shape).Idx → EReal)
    (hd : ∀ n, 0 ≤ d n ∧ d n ≠ ⊤)
    (RN CN CB : IVec ⟨2, ![E, 1]⟩ w)
    (hC : ∀ (e : Fin E) (p : Fin N), (CB (ix2 e (0 : Fin 1))).toInt = (p.val : Int) →
      min (CN (ix2 e (0 : Fin 1))).toInt.toNat (N - 1) = p.val)
    (Z : (⟨2, ![N, K]⟩ : Shape).Idx → EReal) (hZ : ∀ i, Z i = 0)
    (U U' : (⟨2, ![E, K]⟩ : Shape).Idx → EReal)
    (hU : ∀ (e : Fin E) (f : Fin K), U (ix2 e f)
      = Host.gather (rowGatherDims N E K wfg) H RN (ix2 e f)
        * (Host.gather (entryGatherDims N E wfe) d RN (ix1 e) * Host.gather (entryGatherDims N E wfe) d CN (ix1 e)))
    (hU' : ∀ (e : Fin E) (f : Fin K), U' (ix2 e f)
      = Host.gather (rowGatherDims N E K wfg) (fun n => H n * d (ix1 (⟨(n 0).val, idx2_lt0 n⟩ : Fin N))) RN (ix2 e f))
    (p : Fin N) (q : Fin K) :
    Ideal.hostScatterAdd (rowScatterDims N E K wfs) Z CB U (ix2 p q)
      = Ideal.hostScatterAdd (rowScatterDims N E K wfs) Z CB U' (ix2 p q) * d (ix1 p) := by
  unfold Ideal.hostScatterAdd
  rw [hZ, zero_add, zero_add, sum_mul_of_nonneg_of_ne_top _ _ (hd (ix1 p)).1 (hd (ix1 p)).2]
  refine Finset.sum_congr rfl fun j hj => ?_
  obtain ⟨e, f, rfl⟩ : ∃ (e : Fin E) (f : Fin K), j = ix2 e f := ⟨⟨(j 0).val, idx2_lt0 j⟩, ⟨(j 1).val, idx2_lt1 j⟩, eq_ix2 j⟩
  have hland := (scatter_rows_resultIdx?_eq_some_iff wfs CB e f p q).mp (Finset.mem_filter.mp hj).2
  rw [hU e f, hU' e f, gather_rows_apply hN wfg H RN e f, gather_rows_apply hN wfg _ RN e f,
    gather_entries_apply hN wfe d RN e, gather_entries_apply hN wfe d CN e]
  have hp : (⟨min (CN (ix2 e (0 : Fin 1))).toInt.toNat (N - 1), by omega⟩ : Fin N) = p := Fin.ext (hC e p hland.1)
  rw [hp, mul_assoc]
  rfl

end Idealize.ShloMosaic.ValueIdx

end
-- ==== Proof.AggregateLaw.lean ====
/-
  The reference's degree-weighted neighbourhood sum, read at an entry, is the kernel program's plain neighbourhood sum of
  the rows scaled by their own factor, times the factor of the destination row.

  Both programs gather rows of the feature table along the edge list and add them into the edges' destination rows. The
  reference weights edge `e` by `d (src e) * d (dst e)`; the kernel's program scales row `n` by `d n` before the
  gather and multiplies row `p` of the sum by `d p` afterwards. The two agree entry by entry because `d` is
  nonnegative and finite, so the destination's factor leaves the sum (`scatterAdd_weighted_rows`). What is read off the
  two programs here: the index columns at an edge (`plainColumn_apply`, `wrappedColumn_apply`), that a destination
  index which lands on row `p` is nonnegative, so its wrapped and clamped reading is `p` too (`wrap_eq_self`), the
  zero table the sums start from, and the two update tables at an entry.
-/
import proofs.«140534_j83777632075847_2_alg».proof.Proof.Aggregate
import proofs.«140534_j83777632075847_2_alg».proof.Proof.RefAggregate
import proofs.«140534_j83777632075847_2_alg».proof.Proof.LibGraphAggregate
import proofs.«140534_j83777632075847_2_alg».proof.Proof.LibRowGatherScatter
import proofs.«140534_j83777632075847_2_alg».proof.Proof.LibColumnBroadcast
import Idealize.ShloMosaic.Lib.ValueIdx
import Idealize.ShloMosaic.PureOps.Ideal
import Idealize.ShloMosaic.PureOps.Ideal.Laws

noncomputable section

namespace Cert.Bridge

open Idealize.ShloMosaic Idealize.ShloMosaic.ValueIdx

/-! ## The index columns at an edge -/

/-- A 32-bit index whose signed reading is a natural number is not negative, so wrapping it by the node count when
    negative leaves it as it is. -/
theorem wrap_eq_self (v : BitVec 32) (p : ℕ) (hv : v.toInt = (p : Int)) :
    Scalar.select (IntOp.cmpi .slt v 0#32) (IntOp.addi v 100000#32) v = v := by
  have hs : v.slt 0#32 = false := by
    simp [BitVec.slt, hv]
  show Scalar.select (BitVec.ofBool (v.slt 0#32)) (IntOp.addi v 100000#32) v = v
  rw [hs]
  exact select_zero _ _

/-- The plain column of an index vector reads, at edge `e`, the vector's entry `e`. -/
theorem plainColumn_apply (C : IVec Cert.KernelIdeal.S1700000 32) (e : Fin 1700000) :
    Cert.KernelIdeal.Blocks.plainColumn C (ix2 e (0 : Fin 1)) = C (ix1 e) := by
  unfold Cert.KernelIdeal.Blocks.plainColumn
  exact broadcastInDim_a_a1_apply C _ e 0

/-- The wrapped column of an index vector reads, at edge `e`, the vector's entry `e` with the node count added when
    the entry is negative. -/
theorem wrappedColumn_apply (R : IVec Cert.KernelIdeal.S1700000 32) (e : Fin 1700000) :
    Cert.KernelIdeal.Blocks.wrappedColumn R (ix2 e (0 : Fin 1))
      = Scalar.select (IntOp.cmpi .slt (R (ix1 e)) 0#32) (IntOp.addi (R (ix1 e)) 100000#32) (R (ix1 e)) := by
  unfold Cert.KernelIdeal.Blocks.wrappedColumn
  exact (broadcastInDim_a_a1_apply _ _ e 0).trans rfl

/-- An edge whose destination index, read signed, is row `p` of the table reads row `p` also through the wrapped and
    clamped column. -/
theorem wrapped_of_plain (C : IVec Cert.KernelIdeal.S1700000 32) (e : Fin 1700000) (p : Fin 100000)
    (hv : (Cert.KernelIdeal.Blocks.plainColumn C (ix2 e (0 : Fin 1))).toInt = (p.val : Int)) :
    min (Cert.KernelIdeal.Blocks.wrappedColumn C (ix2 e (0 : Fin 1))).toInt.toNat (100000 - 1) = p.val := by
  rw [plainColumn_apply] at hv
  rw [wrappedColumn_apply, wrap_eq_self _ _ hv, hv]
  have := p.isLt
  simp only [Int.toNat_natCast]
  omega

/-! ## The zero table the sums start from -/

/-- The f32 zero constant broadcast to any shape reads the extended real `0` at every index. -/
theorem zeroTable_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  unfold broadcastInDim constant
  exact Ideal.ofBits_zero_f32

/-! ## The two programs' sums over 128 features, opened once -/

/-- The zero table `[100000, 128]` both sums start from. -/
def zero128 : FVec Ideal Cert.KernelIdeal.S100000x128 .f32 :=
  broadcastInDim Cert.KernelIdeal.S100000x128 ![] Cert.KernelIdeal.Gen.bcast_S_S100000x128
    (constant (F := Ideal) Cert.KernelIdeal.S_ .f32 0x00000000#32)

/-- The reference's update table over 128 features: the gathered rows times the edges' weights spread over the features. -/
def refUpdates128 (H : FVec Ideal Cert.KernelIdeal.S100000x128 .f32) (d : FVec Ideal Cert.KernelIdeal.S100000 .f32)
    (R C : IVec Cert.KernelIdeal.S1700000 32) : FVec Ideal Cert.KernelIdeal.S1700000x128 .f32 :=
  mulf (Host.gather Cert.ReferenceIdeal.gather_S100000x128_S1700000x1_S1700000x128_1_0_n_n_0_1_1128 H
      (Cert.ReferenceIdeal.Blocks.wrappedColumn R))
    (broadcastInDim Cert.ReferenceIdeal.S1700000x128 ![0, 1] Cert.ReferenceIdeal.Gen.bcast_S1700000x1_S1700000x128_0_1
      (broadcastInDim Cert.ReferenceIdeal.S1700000x1 ![0] Cert.ReferenceIdeal.Gen.bcast_S1700000_S1700000x1_0
        (Cert.ReferenceIdeal.Blocks.edgeWeights d R C)))

/-- The kernel program's update table over 128 features: the gathered rows (narrowed and widened again around the gather). -/
def kerUpdates128 (H : FVec Ideal Cert.KernelIdeal.S100000x128 .f32) (R : IVec Cert.KernelIdeal.S1700000 32) :
    FVec Ideal Cert.KernelIdeal.S1700000x128 .f32 :=
  extf .f32 (Host.gather Cert.KernelIdeal.gather_S100000x128_S1700000x1_S1700000x128_1_0_n_n_0_1_1128
    (truncf .bf16 H Cert.KernelIdeal.Gen.bitsLt_bf16_f32) (Cert.KernelIdeal.Blocks.wrappedColumn R))
    Cert.KernelIdeal.Gen.bitsLt_bf16_f32

/-- The reference's weighted sum is the accumulating scatter of its update table into the zero table. -/
theorem weighted128_def (H : FVec Ideal Cert.KernelIdeal.S100000x128 .f32) (d : FVec Ideal Cert.KernelIdeal.S100000 .f32)
    (R C : IVec Cert.KernelIdeal.S1700000 32) :
    Cert.ReferenceIdeal.Blocks.weighted128 H d R C
      = Ideal.hostScatterAdd (rowScatterDims 100000 1700000 128
          Cert.ReferenceIdeal.Gen.scatter_S100000x128_S1700000x1_S1700000x128_1_0_0_1_wf)
        zero128 (Cert.KernelIdeal.Blocks.plainColumn C) (refUpdates128 H d R C) := rfl

/-- The kernel program's sum is the accumulating scatter of its update table into the zero table. -/
theorem aggregate128_def (H : FVec Ideal Cert.KernelIdeal.S100000x128 .f32) (R C : IVec Cert.KernelIdeal.S1700000 32) :
    Cert.KernelIdeal.Blocks.aggregate128 H R C
      = Ideal.hostScatterAdd (rowScatterDims 100000 1700000 128
          Cert.ReferenceIdeal.Gen.scatter_S100000x128_S1700000x1_S1700000x128_1_0_0_1_wf)
        zero128 (Cert.KernelIdeal.Blocks.plainColumn C) (kerUpdates128 H R) := rfl

/-- The zero table reads `0` everywhere. -/
theorem zero128_apply (i : Cert.KernelIdeal.S100000x128.Idx) : zero128 i = 0 := by
  unfold zero128
  exact zeroTable_apply _ i

/-- The reference's update table at edge `e`, feature `f`: the gathered row entry times the product of the two gathered
    factors. -/
theorem refUpdates128_apply (H : FVec Ideal Cert.KernelIdeal.S100000x128 .f32) (d : FVec Ideal Cert.KernelIdeal.S100000 .f32)
    (R C : IVec Cert.KernelIdeal.S1700000 32) (e : Fin 1700000) (f : Fin 128) :
    refUpdates128 H d R C (ix2 e f)
      = Host.gather (rowGatherDims 100000 1700000 128
            Cert.ReferenceIdeal.Gen.gather_S100000x128_S1700000x1_S1700000x128_1_0_n_n_0_1_1128_wf) H
          (Cert.KernelIdeal.Blocks.wrappedColumn R) (ix2 e f)
        * (Host.gather (entryGatherDims 100000 1700000 Cert.ReferenceIdeal.Gen.gather_S100000_S1700000x1_S1700000_n_0_n_n_0_1_1_wf)
              d (Cert.KernelIdeal.Blocks.wrappedColumn R) (ix1 e)
          * Host.gather (entryGatherDims 100000 1700000 Cert.ReferenceIdeal.Gen.gather_S100000_S1700000x1_S1700000_n_0_n_n_0_1_1_wf)
              d (Cert.KernelIdeal.Blocks.wrappedColumn C) (ix1 e)) := by
  unfold refUpdates128
  refine (mulf_apply _ _ (ix2 e f)).trans ?_
  refine (congrArg (HMul.hMul _) (((broadcastInDim_a1_ab_apply _ _ e f).trans
    (broadcastInDim_a_a1_apply _ _ e 0)).trans (mulf_apply _ _ (ix1 e)))).trans ?_
  rfl

/-- The kernel program's update table at edge `e`, feature `f`: the gathered row entry (the narrowing and the widening
    are the identity on extended reals). -/
theorem kerUpdates128_apply (H : FVec Ideal Cert.KernelIdeal.S100000x128 .f32) (R : IVec Cert.KernelIdeal.S1700000 32)
    (e : Fin 1700000) (f : Fin 128) :
    kerUpdates128 H R (ix2 e f)
      = Host.gather (rowGatherDims 100000 1700000 128
            Cert.ReferenceIdeal.Gen.gather_S100000x128_S1700000x1_S1700000x128_1_0_n_n_0_1_1128_wf) H
          (Cert.KernelIdeal.Blocks.wrappedColumn R) (ix2 e f) := rfl

/-- THE 128-FEATURE LAW: entry `(p, q)` of the reference's weighted sum is entry `(p, q)` of the kernel program's sum
    over the rows scaled by their own factor, times `d p`. -/
theorem weighted128_eq (H : FVec Ideal Cert.KernelIdeal.S100000x128 .f32) (d : FVec Ideal Cert.KernelIdeal.S100000 .f32)
    (hd : ∀ n, 0 ≤ d n ∧ d n ≠ ⊤) (R C : IVec Cert.KernelIdeal.S1700000 32) (p : Fin 100000) (q : Fin 128) :
    Cert.ReferenceIdeal.Blocks.weighted128 H d R C (ix2 p q)
      = Cert.KernelIdeal.Blocks.aggregate128 (fun n => H n * d (ix1 (⟨(n 0).val, idx2_lt0 n⟩ : Fin 100000))) R C (ix2 p q)
        * d (ix1 p) := by
  refine (congrFun (weighted128_def H d R C) (ix2 p q)).trans ?_
  refine Eq.trans ?_ (congrArg (fun z => z * d (ix1 p)) (congrFun (aggregate128_def
    (fun n => H n * d (ix1 (⟨(n 0).val, idx2_lt0 n⟩ : Fin 100000))) R C) (ix2 p q))).symm
  exact scatterAdd_weighted_rows (N := 100000) (E := 1700000) (K := 128) (w := 32) (by norm_num)
    Cert.ReferenceIdeal.Gen.gather_S100000x128_S1700000x1_S1700000x128_1_0_n_n_0_1_1128_wf
    Cert.ReferenceIdeal.Gen.gather_S100000_S1700000x1_S1700000_n_0_n_n_0_1_1_wf
    Cert.ReferenceIdeal.Gen.scatter_S100000x128_S1700000x1_S1700000x128_1_0_0_1_wf
    H d hd (Cert.KernelIdeal.Blocks.wrappedColumn R) (Cert.KernelIdeal.Blocks.wrappedColumn C)
    (Cert.KernelIdeal.Blocks.plainColumn C) (wrapped_of_plain C) zero128 zero128_apply
    (refUpdates128 H d R C) (kerUpdates128 (fun n => H n * d (ix1 (⟨(n 0).val, idx2_lt0 n⟩ : Fin 100000))) R)
    (refUpdates128_apply H d R C) (kerUpdates128_apply _ R) p q

/-! ## The two programs' sums over 40 features, opened once -/

/-- The zero table `[100000, 40]` both sums start from. -/
def zero40 : FVec Ideal Cert.KernelIdeal.S100000x40 .f32 :=
  broadcastInDim Cert.KernelIdeal.S100000x40 ![] Cert.KernelIdeal.Gen.bcast_S_S100000x40
    (constant (F := Ideal) Cert.KernelIdeal.S_ .f32 0x00000000#32)

/-- The reference's update table over 40 features: the gathered rows times the edges' weights spread over the features. -/
def refUpdates40 (H : FVec Ideal Cert.KernelIdeal.S100000x40 .f32) (d : FVec Ideal Cert.KernelIdeal.S100000 .f32)
    (R C : IVec Cert.KernelIdeal.S1700000 32) : FVec Ideal Cert.KernelIdeal.S1700000x40 .f32 :=
  mulf (Host.gather Cert.ReferenceIdeal.gather_S100000x40_S1700000x1_S1700000x40_1_0_n_n_0_1_140 H
      (Cert.ReferenceIdeal.Blocks.wrappedColumn R))
    (broadcastInDim Cert.ReferenceIdeal.S1700000x40 ![0, 1] Cert.ReferenceIdeal.Gen.bcast_S1700000x1_S1700000x40_0_1
      (broadcastInDim Cert.ReferenceIdeal.S1700000x1 ![0] Cert.ReferenceIdeal.Gen.bcast_S1700000_S1700000x1_0
        (Cert.ReferenceIdeal.Blocks.edgeWeights d R C)))

/-- The kernel program's update table over 40 features: the gathered rows (narrowed and widened again around the gather). -/
def kerUpdates40 (H : FVec Ideal Cert.KernelIdeal.S100000x40 .f32) (R : IVec Cert.KernelIdeal.S1700000 32) :
    FVec Ideal Cert.KernelIdeal.S1700000x40 .f32 :=
  extf .f32 (Host.gather Cert.KernelIdeal.gather_S100000x40_S1700000x1_S1700000x40_1_0_n_n_0_1_140
    (truncf .bf16 H Cert.KernelIdeal.Gen.bitsLt_bf16_f32) (Cert.KernelIdeal.Blocks.wrappedColumn R))
    Cert.KernelIdeal.Gen.bitsLt_bf16_f32

/-- The reference's weighted sum is the accumulating scatter of its update table into the zero table. -/
theorem weighted40_def (H : FVec Ideal Cert.KernelIdeal.S100000x40 .f32) (d : FVec Ideal Cert.KernelIdeal.S100000 .f32)
    (R C : IVec Cert.KernelIdeal.S1700000 32) :
    Cert.ReferenceIdeal.Blocks.weighted40 H d R C
      = Ideal.hostScatterAdd (rowScatterDims 100000 1700000 40
          Cert.ReferenceIdeal.Gen.scatter_S100000x40_S1700000x1_S1700000x40_1_0_0_1_wf)
        zero40 (Cert.KernelIdeal.Blocks.plainColumn C) (refUpdates40 H d R C) := rfl

/-- The kernel program's sum is the accumulating scatter of its update table into the zero table. -/
theorem aggregate40_def (H : FVec Ideal Cert.KernelIdeal.S100000x40 .f32) (R C : IVec Cert.KernelIdeal.S1700000 32) :
    Cert.KernelIdeal.Blocks.aggregate40 H R C
      = Ideal.hostScatterAdd (rowScatterDims 100000 1700000 40
          Cert.ReferenceIdeal.Gen.scatter_S100000x40_S1700000x1_S1700000x40_1_0_0_1_wf)
        zero40 (Cert.KernelIdeal.Blocks.plainColumn C) (kerUpdates40 H R) := rfl

/-- The zero table reads `0` everywhere. -/
theorem zero40_apply (i : Cert.KernelIdeal.S100000x40.Idx) : zero40 i = 0 := by
  unfold zero40
  exact zeroTable_apply _ i

/-- The reference's update table at edge `e`, feature `f`: the gathered row entry times the product of the two gathered
    factors. -/
theorem refUpdates40_apply (H : FVec Ideal Cert.KernelIdeal.S100000x40 .f32) (d : FVec Ideal Cert.KernelIdeal.S100000 .f32)
    (R C : IVec Cert.KernelIdeal.S1700000 32) (e : Fin 1700000) (f : Fin 40) :
    refUpdates40 H d R C (ix2 e f)
      = Host.gather (rowGatherDims 100000 1700000 40
            Cert.ReferenceIdeal.Gen.gather_S100000x40_S1700000x1_S1700000x40_1_0_n_n_0_1_140_wf) H
          (Cert.KernelIdeal.Blocks.wrappedColumn R) (ix2 e f)
        * (Host.gather (entryGatherDims 100000 1700000 Cert.ReferenceIdeal.Gen.gather_S100000_S1700000x1_S1700000_n_0_n_n_0_1_1_wf)
              d (Cert.KernelIdeal.Blocks.wrappedColumn R) (ix1 e)
          * Host.gather (entryGatherDims 100000 1700000 Cert.ReferenceIdeal.Gen.gather_S100000_S1700000x1_S1700000_n_0_n_n_0_1_1_wf)
              d (Cert.KernelIdeal.Blocks.wrappedColumn C) (ix1 e)) := by
  unfold refUpdates40
  refine (mulf_apply _ _ (ix2 e f)).trans ?_
  refine (congrArg (HMul.hMul _) (((broadcastInDim_a1_ab_apply _ _ e f).trans
    (broadcastInDim_a_a1_apply _ _ e 0)).trans (mulf_apply _ _ (ix1 e)))).trans ?_
  rfl

/-- The kernel program's update table at edge `e`, feature `f`: the gathered row entry (the narrowing and the widening
    are the identity on extended reals). -/
theorem kerUpdates40_apply (H : FVec Ideal Cert.KernelIdeal.S100000x40 .f32) (R : IVec Cert.KernelIdeal.S1700000 32)
    (e : Fin 1700000) (f : Fin 40) :
    kerUpdates40 H R (ix2 e f)
      = Host.gather (rowGatherDims 100000 1700000 40
            Cert.ReferenceIdeal.Gen.gather_S100000x40_S1700000x1_S1700000x40_1_0_n_n_0_1_140_wf) H
          (Cert.KernelIdeal.Blocks.wrappedColumn R) (ix2 e f) := rfl

/-- THE 40-FEATURE LAW: entry `(p, q)` of the reference's weighted sum is entry `(p, q)` of the kernel program's sum
    over the rows scaled by their own factor, times `d p`. -/
theorem weighted40_eq (H : FVec Ideal Cert.KernelIdeal.S100000x40 .f32) (d : FVec Ideal Cert.KernelIdeal.S100000 .f32)
    (hd : ∀ n, 0 ≤ d n ∧ d n ≠ ⊤) (R C : IVec Cert.KernelIdeal.S1700000 32) (p : Fin 100000) (q : Fin 40) :
    Cert.ReferenceIdeal.Blocks.weighted40 H d R C (ix2 p q)
      = Cert.KernelIdeal.Blocks.aggregate40 (fun n => H n * d (ix1 (⟨(n 0).val, idx2_lt0 n⟩ : Fin 100000))) R C (ix2 p q)
        * d (ix1 p) := by
  refine (congrFun (weighted40_def H d R C) (ix2 p q)).trans ?_
  refine Eq.trans ?_ (congrArg (fun z => z * d (ix1 p)) (congrFun (aggregate40_def
    (fun n => H n * d (ix1 (⟨(n 0).val, idx2_lt0 n⟩ : Fin 100000))) R C) (ix2 p q))).symm
  exact scatterAdd_weighted_rows (N := 100000) (E := 1700000) (K := 40) (w := 32) (by norm_num)
    Cert.ReferenceIdeal.Gen.gather_S100000x40_S1700000x1_S1700000x40_1_0_n_n_0_1_140_wf
    Cert.ReferenceIdeal.Gen.gather_S100000_S1700000x1_S1700000_n_0_n_n_0_1_1_wf
    Cert.ReferenceIdeal.Gen.scatter_S100000x40_S1700000x1_S1700000x40_1_0_0_1_wf
    H d hd (Cert.KernelIdeal.Blocks.wrappedColumn R) (Cert.KernelIdeal.Blocks.wrappedColumn C)
    (Cert.KernelIdeal.Blocks.plainColumn C) (wrapped_of_plain C) zero40 zero40_apply
    (refUpdates40 H d R C) (kerUpdates40 (fun n => H n * d (ix1 (⟨(n 0).val, idx2_lt0 n⟩ : Fin 100000))) R)
    (refUpdates40_apply H d R C) (kerUpdates40_apply _ R) p q

end Cert.Bridge

end
-- ==== Proof.RefValue.lean ====
/-
  The reference's result is the kernel's function of the arguments.

  The reference weights every edge by the degree factors of its two ends, `d (src e) * d (dst e)`, inside each of its two
  neighbourhood sums; the kernel's program scales rows by `d` before the sum and once more after it. The factor of the
  destination row is common to all edges landing on that row, and a degree factor is a nonnegative finite number (zero,
  or one over a square root), so it may be taken out of the sum (Proof/AggregateLaw.lean): the reference's first layer
  is `aggregate128 (scaledProduct x w₁ D) · d`, so its clipped hidden layer times `w₂`, scaled by `d`, is
  `scaledHidden`; its second layer is `aggregate40 (scaledHidden …) · d`, so its logits are the kernel's `logitAt`; and
  both programs apply the same row-wise log-softmax to the logits (Proof/RefSoftmax.lean).
-/
import proofs.«140534_j83777632075847_2_alg».proof.Proof.RefRead
import proofs.«140534_j83777632075847_2_alg».proof.Proof.RefAggregate
import proofs.«140534_j83777632075847_2_alg».proof.Proof.RefSoftmax
import proofs.«140534_j83777632075847_2_alg».proof.Proof.Aggregate
import proofs.«140534_j83777632075847_2_alg».proof.Proof.AggregateLaw
import proofs.«140534_j83777632075847_2_alg».proof.Proof.Spec
import Idealize.ShloMosaic.PureOps.Ideal
import Idealize.ShloMosaic.PureOps.Ideal.Laws
import Idealize.ShloMosaic.Lib.ValueIdx

noncomputable section

namespace Cert.Bridge

open Cert.ReferenceIdeal Cert.ReferenceIdeal.Gen Cert.ReferenceIdeal.ReadP Cert.ReferenceIdeal.Blocks
open Idealize.ShloMosaic Idealize.ShloMosaic.TcCoe Idealize.SL.Sem Idealize.ShloMosaic.ValueIdx

/-- One over the square root of a positive count, or zero: a nonnegative finite number. -/
theorem select_rsqrt_bounds (a : EReal) :
    0 ≤ Scalar.select (Ideal.cmp .ogt a 0) (Ideal.rsqrt a) (0 : EReal)
      ∧ Scalar.select (Ideal.cmp .ogt a 0) (Ideal.rsqrt a) (0 : EReal) ≠ ⊤ := by
  by_cases h : (0 : EReal) < a
  · have hc : Ideal.cmp .ogt a 0 = 1#1 := by simp [Ideal.cmp, h]
    rw [hc, select_one]
    induction a using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hc : Ideal.cmp .ogt a 0 = 0#1 := by simp [Ideal.cmp, h]
    rw [hc, select_zero]
    exact ⟨le_refl _, EReal.zero_ne_top⟩

variable (x0 : FVec Ideal S100000x128 .f32) (x1 : IVec S2x1600000 32) (x2 : FVec Ideal S128x128 .f32)
  (x3 : FVec Ideal S128 .f32) (x4 : FVec Ideal S128x40 .f32) (x5 : FVec Ideal S40 .f32)

/-- The degree factors are nonnegative and finite. -/
theorem degree_bounds (n : S100000.Idx) :
    0 ≤ val_main_v15 (F := Ideal) x1 n ∧ val_main_v15 (F := Ideal) x1 n ≠ ⊤ := by
  have h12 : val_main_v12 (F := Ideal) n = 0 := by
    rw [val_main_v12_apply, val_main_cst_1_apply]; exact Ideal.ofBits_zero_f32
  have hz : val_main_call0_v1 (F := Ideal) n = 0 := by
    rw [val_main_call0_v1_apply, val_main_call0_v0_apply, val_main_cst_2_apply]; exact Ideal.ofBits_zero_f32
  rw [val_main_v15_apply, val_main_v13_apply, val_main_v14_apply, h12, hz]
  generalize val_main_v11 (F := Ideal) x1 n = a
  exact select_rsqrt_bounds a

variable (Dcol : FVec Ideal S100000x1 .f32) (B1 : FVec Ideal S1x128 .f32) (B2 : FVec Ideal S1x40 .f32)

/-- The reference's first product with each row scaled by its degree factor is the kernel's first stage. -/
theorem product_scaled (hD : ∀ p : Fin 100000, Dcol (ix2 p (0 : Fin 1)) = val_main_v15 (F := Ideal) x1 (ix1 p)) :
    (fun n : S100000x128.Idx => val_main_v4 (F := Ideal) x0 x2 n
        * val_main_v15 (F := Ideal) x1 (ix1 (⟨(n 0).val, idx2_lt0 n⟩ : Fin 100000)))
      = Cert.Gcn.scaledProduct x0 x2 Dcol := by
  funext n
  obtain ⟨p, q, rfl⟩ : ∃ (p : Fin 100000) (q : Fin 128), n = ix2 p q :=
    ⟨⟨(n 0).val, idx2_lt0 n⟩, ⟨(n 1).val, idx2_lt1 n⟩, eq_ix2 n⟩
  rw [Cert.Gcn.scaledProduct_ix2, val_main_v4_apply]
  unfold Cert.Gcn.scaledProductAt
  rw [hD p]
  generalize val_main_v15 (F := Ideal) x1 = d
  have e1 : ∀ k : Fin 128, lidx_main_v4 (ix2 p q) k = ix2 p k := fun k => funext fun a => Fin.ext (by
    match a with
    | ⟨0, _⟩ => rfl
    | ⟨1, _⟩ => rfl)
  have e2 : ∀ k : Fin 128, ridx_main_v4 (ix2 p q) k = ix2 k q := fun k => funext fun a => Fin.ext (by
    match a with
    | ⟨0, _⟩ => rfl
    | ⟨1, _⟩ => rfl)
  simp only [e1, e2]

/-- The reference's first neighbourhood sum is the kernel's, times the destination row's factor. -/
theorem layer1_eq (hD : ∀ p : Fin 100000, Dcol (ix2 p (0 : Fin 1)) = val_main_v15 (F := Ideal) x1 (ix1 p)) (p : Fin 100000) (k : Fin 128) :
    val_main_v43 (F := Ideal) x0 x1 x2 (ix2 p k)
      = Cert.KernelIdeal.Blocks.aggregate128 (Cert.Gcn.scaledProduct x0 x2 Dcol)
          (val_main_v6 (F := Ideal) x1) (val_main_v7 (F := Ideal) x1) (ix2 p k)
        * val_main_v15 (F := Ideal) x1 (ix1 p) := by
  have e43 : val_main_v43 (F := Ideal) x0 x1 x2
      = weighted128 (val_main_v4 (F := Ideal) x0 x2) (val_main_v15 (F := Ideal) x1)
          (val_main_v6 (F := Ideal) x1) (val_main_v7 (F := Ideal) x1) := rfl
  rw [e43, weighted128_eq _ _ (degree_bounds x1) _ _ p k, product_scaled x0 x1 x2 Dcol hD]

/-- The reference's clipped hidden layer times the second weights, each row scaled by its factor, is the kernel's
    second stage. -/
theorem hidden_scaled (hD : ∀ p : Fin 100000, Dcol (ix2 p (0 : Fin 1)) = val_main_v15 (F := Ideal) x1 (ix1 p))
    (hB1 : ∀ k : Fin 128, B1 (ix2 (0 : Fin 1) k) = x3 (ix1 k)) :
    (fun n : S100000x40.Idx => val_main_v48 (F := Ideal) x0 x1 x2 x3 x4 n
        * val_main_v15 (F := Ideal) x1 (ix1 (⟨(n 0).val, idx2_lt0 n⟩ : Fin 100000)))
      = Cert.Gcn.scaledHidden
          (Cert.KernelIdeal.Blocks.aggregate128 (Cert.Gcn.scaledProduct x0 x2 Dcol)
            (val_main_v6 (F := Ideal) x1) (val_main_v7 (F := Ideal) x1)) Dcol B1 x4 := by
  funext n
  obtain ⟨p, q, rfl⟩ : ∃ (p : Fin 100000) (q : Fin 40), n = ix2 p q :=
    ⟨⟨(n 0).val, idx2_lt0 n⟩, ⟨(n 1).val, idx2_lt1 n⟩, eq_ix2 n⟩
  rw [Cert.Gcn.scaledHidden_ix2, val_main_v48_apply]
  unfold Cert.Gcn.scaledHiddenAt
  rw [hD p]
  have e1 : ∀ k : Fin 128, lidx_main_v48 (ix2 p q) k = ix2 p k := fun k => funext fun a => Fin.ext (by
    match a with
    | ⟨0, _⟩ => rfl
    | ⟨1, _⟩ => rfl)
  have e2 : ∀ k : Fin 128, ridx_main_v48 (ix2 p q) k = ix2 k q := fun k => funext fun a => Fin.ext (by
    match a with
    | ⟨0, _⟩ => rfl
    | ⟨1, _⟩ => rfl)
  have hk : ∀ k : Fin 128, val_main_v47 (F := Ideal) x0 x1 x2 x3 (ix2 p k)
      = max (Cert.KernelIdeal.Blocks.aggregate128 (Cert.Gcn.scaledProduct x0 x2 Dcol)
          (val_main_v6 (F := Ideal) x1) (val_main_v7 (F := Ideal) x1) (ix2 p k) * val_main_v15 (F := Ideal) x1 (ix1 p)
          + B1 (ix2 (0 : Fin 1) k)) 0 := by
    intro k
    have h45 : val_main_v45 (F := Ideal) x3 (ix2 p k) = x3 (ix1 k) := by
      rw [val_main_v45_apply, val_main_v44_apply]
      exact congrArg x3 (funext fun a => Fin.ext (by
        match a with
        | ⟨0, _⟩ => rfl))
    have h0 : val_main_call1_v0 (F := Ideal) (ix2 p k) = 0 := by
      rw [val_main_call1_v0_apply, val_main_call1_cst_apply]; exact Ideal.ofBits_zero_f32
    rw [val_main_v47_apply, val_main_v46_apply, h45, h0, layer1_eq x0 x1 x2 Dcol hD p k, hB1 k]
    generalize Cert.KernelIdeal.Blocks.aggregate128 _ _ _ (ix2 p k) = A
    generalize val_main_v15 (F := Ideal) x1 (ix1 p) = dp
    rfl
  simp only [e1, e2, hk]

/-- The reference's logits are the kernel's. -/
theorem logits_eq (hD : ∀ p : Fin 100000, Dcol (ix2 p (0 : Fin 1)) = val_main_v15 (F := Ideal) x1 (ix1 p))
    (hB1 : ∀ k : Fin 128, B1 (ix2 (0 : Fin 1) k) = x3 (ix1 k))
    (hB2 : ∀ q : Fin 40, B2 (ix2 (0 : Fin 1) q) = x5 (ix1 q)) (p : Fin 100000) (q : Fin 40) :
    val_main_v90 (F := Ideal) x0 x1 x2 x3 x4 x5 (ix2 p q)
      = Cert.Gcn.logitAt
          (Cert.KernelIdeal.Blocks.aggregate40
            (Cert.Gcn.scaledHidden
              (Cert.KernelIdeal.Blocks.aggregate128 (Cert.Gcn.scaledProduct x0 x2 Dcol)
                (val_main_v6 (F := Ideal) x1) (val_main_v7 (F := Ideal) x1)) Dcol B1 x4)
            (val_main_v6 (F := Ideal) x1) (val_main_v7 (F := Ideal) x1)) Dcol B2 p q := by
  have e87 : val_main_v87 (F := Ideal) x0 x1 x2 x3 x4
      = weighted40 (val_main_v48 (F := Ideal) x0 x1 x2 x3 x4) (val_main_v15 (F := Ideal) x1)
          (val_main_v6 (F := Ideal) x1) (val_main_v7 (F := Ideal) x1) := rfl
  have h89 : val_main_v89 (F := Ideal) x5 (ix2 p q) = x5 (ix1 q) := by
    rw [val_main_v89_apply, val_main_v88_apply]
    exact congrArg x5 (funext fun a => Fin.ext (by
      match a with
      | ⟨0, _⟩ => rfl))
  rw [val_main_v90_apply, e87, weighted40_eq _ _ (degree_bounds x1) _ _ p q,
    hidden_scaled x0 x1 x2 x3 x4 Dcol B1 hD hB1, h89]
  unfold Cert.Gcn.logitAt
  rw [hD p, hB2 q]
  rfl

/-- THE REFERENCE'S RESULT as the kernel's function of the arguments. -/
theorem reference_eq (hD : ∀ p : Fin 100000, Dcol (ix2 p (0 : Fin 1)) = val_main_v15 (F := Ideal) x1 (ix1 p))
    (hB1 : ∀ k : Fin 128, B1 (ix2 (0 : Fin 1) k) = x3 (ix1 k))
    (hB2 : ∀ q : Fin 40, B2 (ix2 (0 : Fin 1) q) = x5 (ix1 q)) :
    val_main_v91 (F := Ideal) x0 x1 x2 x3 x4 x5
      = Cert.Gcn.logSoftmaxRows (Ideal.ofBits .f32 0xFF800000#32)
          (Cert.KernelIdeal.Blocks.aggregate40
            (Cert.Gcn.scaledHidden
              (Cert.KernelIdeal.Blocks.aggregate128 (Cert.Gcn.scaledProduct x0 x2 Dcol)
                (val_main_v6 (F := Ideal) x1) (val_main_v7 (F := Ideal) x1)) Dcol B1 x4)
            (val_main_v6 (F := Ideal) x1) (val_main_v7 (F := Ideal) x1)) Dcol B2 := by
  have e91 : val_main_v91 (F := Ideal) x0 x1 x2 x3 x4 x5 = logSoftmax (val_main_v90 (F := Ideal) x0 x1 x2 x3 x4 x5) := rfl
  rw [e91]
  funext n
  obtain ⟨p, q, rfl⟩ : ∃ (p : Fin 100000) (q : Fin 40), n = ix2 p q :=
    ⟨⟨(n 0).val, idx2_lt0 n⟩, ⟨(n 1).val, idx2_lt1 n⟩, eq_ix2 n⟩
  rw [logSoftmax_ix2, Cert.Gcn.logSoftmaxRows_ix2]
  unfold Cert.Gcn.logSoftmaxAt Cert.Gcn.rowMaxAt rowMax
  simp only [logits_eq x0 x1 x2 x3 x4 x5 Dcol B1 B2 hD hB1 hB2]

end Cert.Bridge

end
-- ==== Proof.lean ====
/-
  A two-layer graph convolution with a row-wise log-softmax, computed two ways.

  The kernel's program scales each node's row by its degree factor `d` before a neighbourhood sum and once more after
  it (three row-blocked stages around two gather-and-add passes over the edge list); the reference weights every edge
  by `d (src e) * d (dst e)` inside the sum. On the extended reals the two agree for every edge list, in range or not:
  an edge that lands on row `p` has destination `p`, so `d p` is a common factor of the terms of row `p`'s sum, and a
  degree factor is a nonnegative finite number, which is exactly when a factor may be moved across a sum of extended
  reals. The matrix products agree because a block of rows of a product is the product of the block; the bias, the
  clipping at zero and the log-softmax are the same functions on both sides.

  The three frames are the generated ones (the reference's is its run with the result dropped); the idealization
  rewrote nothing, so `preserves` is trivial; `algebraic` joins the kernel program's run (Proof/KernelRun.lean), its
  result as a function of the arguments (Proof/KernelValue.lean, Proof/KernelInputs.lean, Proof/KernelDegree.lean), the
  reference's run (Proof/RefRunByParts.lean) and the equality of the two functions (Proof/RefValue.lean).
-/
import proofs.«140534_j83777632075847_2_alg».proof.Defs
import proofs.«140534_j83777632075847_2_alg».proof.Proof.Gen.Kernel
import proofs.«140534_j83777632075847_2_alg».proof.Proof.Gen.Kernel.Skeleton
import proofs.«140534_j83777632075847_2_alg».proof.Proof.Gen.Kernel.Launch
import proofs.«140534_j83777632075847_2_alg».proof.Proof.Gen.Kernel.Points
import proofs.«140534_j83777632075847_2_alg».proof.Proof.Gen.Kernel.Frame
import proofs.«140534_j83777632075847_2_alg».proof.Proof.Gen.KernelIdeal
import proofs.«140534_j83777632075847_2_alg».proof.Proof.Gen.KernelIdeal.Skeleton
import proofs.«140534_j83777632075847_2_alg».proof.Proof.Gen.KernelIdeal.Launch
import proofs.«140534_j83777632075847_2_alg».proof.Proof.Gen.KernelIdeal.Points
import proofs.«140534_j83777632075847_2_alg».proof.Proof.Gen.KernelIdeal.Frame
import proofs.«140534_j83777632075847_2_alg».proof.Proof.Gen.ReferenceIdeal
import proofs.«140534_j83777632075847_2_alg».proof.Proof.Gen.Pre_finite_inputs
import proofs.«140534_j83777632075847_2_alg».proof.Proof.KernelRun
import proofs.«140534_j83777632075847_2_alg».proof.Proof.KernelValue
import proofs.«140534_j83777632075847_2_alg».proof.Proof.KernelInputs
import proofs.«140534_j83777632075847_2_alg».proof.Proof.KernelDegree
import proofs.«140534_j83777632075847_2_alg».proof.Proof.RefRunByParts
import proofs.«140534_j83777632075847_2_alg».proof.Proof.RefValue
import proofs.«140534_j83777632075847_2_alg».proof.Proof.LibColumnBroadcast
import Idealize.ShloMosaic.Lib.ValueLayout
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ByParts.run m ρ)

/-- The idealization rewrote no operation. -/
theorem preserves : Cert.preserves_Kernel_KernelIdeal := trivial

/-- Both programs end with the same array: the kernel's function of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v44),
    Cert.KernelIdeal.Blocks.run_out m ρ, ?_⟩
  refine (θ_run Cert.ReferenceIdeal.defs _ _).mono (fun _ h c => ⟨(h c).1.trans ?_, (h c).2⟩)
    (Cert.ReferenceIdeal.ByParts.run m' ρ')
  rw [(hagree c).1, (hagree c).2.1, (hagree c).2.2.1, (hagree c).2.2.2.1, (hagree c).2.2.2.2.1, (hagree c).2.2.2.2.2]
  show _ = Cert.KernelIdeal.Gen.W8 m ρ c (Proc.devRef .tc Cert.KernelIdeal.main_v44)
  rw [Cert.KernelIdeal.Blocks.result_eq m ρ c, Cert.KernelIdeal.Blocks.in_features, Cert.KernelIdeal.Blocks.in_weights1,
    Cert.KernelIdeal.Blocks.in_weights2, Cert.KernelIdeal.Blocks.in_rows, Cert.KernelIdeal.Blocks.in_cols,
    Cert.KernelIdeal.Blocks.in_degree, Cert.KernelIdeal.Blocks.in_bias1, Cert.KernelIdeal.Blocks.in_bias2]
  exact Cert.Bridge.reference_eq _ _ _ _ _ _ _ _ _
    (fun p => broadcastInDim_a_a1_apply _ _ p (0 : Fin 1))
    (fun k => shapeCast_a_1a_apply _ _ (0 : Fin 1) k)
    (fun q => shapeCast_a_1a_apply _ _ (0 : Fin 1) q)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
